-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024x7x7 : Shape := ⟨4, ![256, 1024, 7, 7]⟩
abbrev S1024x512 : Shape := ⟨2, ![1024, 512]⟩
abbrev S1x512 : Shape := ⟨2, ![1, 512]⟩
abbrev S512x128 : Shape := ⟨2, ![512, 128]⟩
abbrev S1x128 : Shape := ⟨2, ![1, 128]⟩
abbrev S128x3 : Shape := ⟨2, ![128, 3]⟩
abbrev S1x3 : Shape := ⟨2, ![1, 3]⟩
abbrev S_ : Shape := ⟨0, ![]⟩

class Facts : Prop where
  bcast_S_S256x1024x7x7 : S_.BroadcastsInDim S256x1024x7x7 (![] : Fin 0 → Fin S256x1024x7x7.rank)
  reducesTo_S256x1024x7x7_S_d0_1_2_3 : S256x1024x7x7.ReducesTo [0, 1, 2, 3] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S1x512 : S_.BroadcastsInDim S1x512 (![] : Fin 0 → Fin S1x512.rank)
  reducesTo_S1x512_S_d0_1 : S1x512.ReducesTo [0, 1] S_
  bcast_S_S512x128 : S_.BroadcastsInDim S512x128 (![] : Fin 0 → Fin S512x128.rank)
  reducesTo_S512x128_S_d0_1 : S512x128.ReducesTo [0, 1] S_
  bcast_S_S1x128 : S_.BroadcastsInDim S1x128 (![] : Fin 0 → Fin S1x128.rank)
  reducesTo_S1x128_S_d0_1 : S1x128.ReducesTo [0, 1] S_
  bcast_S_S128x3 : S_.BroadcastsInDim S128x3 (![] : Fin 0 → Fin S128x3.rank)
  reducesTo_S128x3_S_d0_1 : S128x3.ReducesTo [0, 1] S_
  bcast_S_S1x3 : S_.BroadcastsInDim S1x3 (![] : Fin 0 → Fin S1x3.rank)
  reducesTo_S1x3_S_d0_1 : S1x3.ReducesTo [0, 1] S_

variable [Facts]

def fn_part1 {F : FTy → Type} [FloatOps F] (main_arg4 : FVec F S1x128 .f32) (main_arg5 : FVec F S128x3 .f32) (main_arg6 : FVec F S1x3 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S128x3 .f32 := Host.absf main_arg5
  let main_cst_8 : FVec F S_ .f32 := constant S_ .f32 0x7F800000#32
  let main_v25 : FVec F S128x3 .f32 := broadcastInDim S128x3 ![] bcast_S_S128x3 main_cst_8
  let main_v26 : IVec S128x3 1 := cmpf .olt main_v24 main_v25
  let main_c_9 : IVec S_ 1 := constantI S_ 1 1#1
  let main_v27 : IVec S_ 1 := (fun x v => Host.reduce IntOp.andi x v reducesTo_S128x3_S_d0_1 h_S_) main_v26 main_c_9
  let main_v28 : IVec S_ 1 := andi main_v23 main_v27
  let main_v29 : FVec F S1x3 .f32 := Host.absf main_arg6
  let main_cst_10 : FVec F S_ .f32 := constant S_ .f32 0x7F800000#32
  let main_v30 : FVec F S1x3 .f32 := broadcastInDim S1x3 ![] bcast_S_S1x3 main_cst_10
  let main_v31 : IVec S1x3 1 := cmpf .olt main_v29 main_v30
  let main_c_11 : IVec S_ 1 := constantI S_ 1 1#1
  let main_v32 : IVec S_ 1 := (fun x v => Host.reduce IntOp.andi x v reducesTo_S1x3_S_d0_1 h_S_) main_v31 main_c_11
  let main_v33 : IVec S_ 1 := andi main_v28 main_v32
  main_v33

def fn {F : FTy → Type} [FloatOps F] (main_arg0 : FVec F S256x1024x7x7 .f32) (main_arg1 : FVec F S1024x512 .f32) (main_arg2 : FVec F S1x512 .f32) (main_arg3 : FVec F S512x128 .f32) (main_arg4 : FVec F S1x128 .f32) (main_arg5 : FVec F S128x3 .f32) (main_arg6 : FVec F S1x3 .f32) : IVec S_ 1 :=
  let main_v0 : FVec F S256x1024x7x7 .f32 := Host.absf main_arg0
  let main_cst : FVec F S_ .f32 := constant S_ .f32 0x7F800000#32
  let main_v1 : FVec F S256x1024x7x7 .f32 := broadcastInDim S256x1024x7x7 ![] bcast_S_S256x1024x7x7 main_cst
  let main_v2 : IVec S256x1024x7x7 1 := cmpf .olt main_v0 main_v1
  let main_c : IVec S_ 1 := constantI S_ 1 1#1
  let main_v3 : IVec S_ 1 := (fun x v => Host.reduce IntOp.andi x v reducesTo_S256x1024x7x7_S_d0_1_2_3 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_arg5 main_arg6 main_v13 main_v16
-- ==== Kernel.lean ====
abbrev S256x1024x7x7 : Shape := ⟨4, ![256, 1024, 7, 7]⟩
abbrev S1024x512 : Shape := ⟨2, ![1024, 512]⟩
abbrev S1x512 : Shape := ⟨2, ![1, 512]⟩
abbrev S512x128 : Shape := ⟨2, ![512, 128]⟩
abbrev S1x128 : Shape := ⟨2, ![1, 128]⟩
abbrev S128x3 : Shape := ⟨2, ![128, 3]⟩
abbrev S1x3 : Shape := ⟨2, ![1, 3]⟩
abbrev S7x7x256x1024 : Shape := ⟨4, ![7, 7, 256, 1024]⟩
abbrev S49x256x1024 : Shape := ⟨3, ![49, 256, 1024]⟩
abbrev S256x128 : Shape := ⟨2, ![256, 128]⟩
abbrev S256x3 : Shape := ⟨2, ![256, 3]⟩
abbrev S49x32x1024 : Shape := ⟨3, ![49, 32, 1024]⟩
abbrev S32x128 : Shape := ⟨2, ![32, 128]⟩
abbrev S32x3 : Shape := ⟨2, ![32, 3]⟩
abbrev S32x1024 : Shape := ⟨2, ![32, 1024]⟩
abbrev S32x512 : Shape := ⟨2, ![32, 512]⟩
abbrev S32 : Shape := ⟨1, ![32]⟩
abbrev S32x1 : Shape := ⟨2, ![32, 1]⟩

abbrev nBuf : Space → Nat
  | .hbm => 11
  | .vmem => 12
  | .smem => 0
  | _ => 0

abbrev bufTy : (tb : Table) → Fin (tcTables nBuf tb) → BufTy
  | .hbm, ⟨0, _⟩ => ⟨S256x1024x7x7, .f32⟩
  | .hbm, ⟨1, _⟩ => ⟨S1024x512, .f32⟩
  | .hbm, ⟨2, _⟩ => ⟨S1x512, .f32⟩
  | .hbm, ⟨3, _⟩ => ⟨S512x128, .f32⟩
  | .hbm, ⟨4, _⟩ => ⟨S1x128, .f32⟩
  | .hbm, ⟨5, _⟩ => ⟨S128x3, .f32⟩
  | .hbm, ⟨6, _⟩ => ⟨S1x3, .f32⟩
  | .hbm, ⟨7, _⟩ => ⟨S7x7x256x1024, .f32⟩
  | .hbm, ⟨8, _⟩ => ⟨S49x256x1024, .f32⟩
  | .hbm, ⟨9, _⟩ => ⟨S256x128, .f32⟩
  | .hbm, ⟨10, _⟩ => ⟨S256x3, .f32⟩
  | .local _ .vmem, ⟨0, _⟩ => ⟨S49x32x1024, .f32⟩
  | .local _ .vmem, ⟨1, _⟩ => ⟨S49x32x1024, .f32⟩
  | .local _ .vmem, ⟨2, _⟩ => ⟨S1024x512, .f32⟩
  | .local _ .vmem, ⟨3, _⟩ => ⟨S1x512, .f32⟩
  | .local _ .vmem, ⟨4, _⟩ => ⟨S512x128, .f32⟩
  | .local _ .vmem, ⟨5, _⟩ => ⟨S1x128, .f32⟩
  | .local _ .vmem, ⟨6, _⟩ => ⟨S128x3, .f32⟩
  | .local _ .vmem, ⟨7, _⟩ => ⟨S1x3, .f32⟩
  | .local _ .vmem, ⟨8, _⟩ => ⟨S32x128, .f32⟩
  | .local _ .vmem, ⟨9, _⟩ => ⟨S32x128, .f32⟩
  | .local _ .vmem, ⟨10, _⟩ => ⟨S32x3, .f32⟩
  | .local _ .vmem, ⟨11, _⟩ => ⟨S32x3, .f32⟩
  | _, _ => ⟨S256x1024x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S49x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x3 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S256x1024x7x7_S7x7x256x1024_2_3_0_1 : S256x1024x7x7.Transposes [2, 3, 0, 1] S7x7x256x1024
  shapeCasts_S7x7x256x1024_S49x256x1024 : S7x7x256x1024.ShapeCasts S49x256x1024
  inb_S49x32x1024_S49x32x1024_0_0_0 : ∀ a, (![0, 0, 0] : Fin 3 → Nat) a + S49x32x1024.size a ≤ S49x32x1024.size a
  h_S49x32x1024 : 0 < S49x32x1024.numel
  shapeCasts_S49x32x1024_S49x32x1024 : S49x32x1024.ShapeCasts S49x32x1024
  reduces_S49x32x1024_S32x1024 : S49x32x1024.Reduces [0] S32x1024
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  broadcasts_S1x512_S32x512 : S1x512.Broadcasts S32x512
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  broadcasts_S1x128_S32x128 : S1x128.Broadcasts S32x128
  reduces_S32x128_S32 : S32x128.Reduces [1] S32
  shapeCasts_S32_S32x1 : S32.ShapeCasts S32x1
  broadcasts_S32x1_S32x128 : S32x1.Broadcasts S32x128
  inb_S128x3_S128x3_0_0 : ∀ a, (![0, 0] : Fin 2 → Nat) a + S128x3.size a ≤ S128x3.size a
  h_S128x3 : 0 < S128x3.numel
  inb_S32x128_S32x128_0_0 : ∀ a, (![0, 0] : Fin 2 → Nat) a + S32x128.size a ≤ S32x128.size a
  h_S32x128 : 0 < S32x128.numel
  inb_S1x3_S1x3_0_0 : ∀ a, (![0, 0] : Fin 2 → Nat) a + S1x3.size a ≤ S1x3.size a
  h_S1x3 : 0 < S1x3.numel
  broadcasts_S1x3_S32x3 : S1x3.Broadcasts S32x3
  inb_S32x3_S32x3_0_0 : ∀ a, (![0, 0] : Fin 2 → Nat) a + S32x3.size a ≤ S32x3.size a
  h_S32x3 : 0 < S32x3.numel
  dot_S32x1024_S1024x512_S32x512_1_0_0_1_n_n_wf : DotDims.WF S32x1024 S1024x512 S32x512 [1] [0] [0] [1] [] []
  dot_S32x512_S512x128_S32x128_1_0_0_1_n_n_wf : DotDims.WF S32x512 S512x128 S32x128 [1] [0] [0] [1] [] []
  dot_S32x128_S128x3_S32x3_1_0_0_1_n_n_wf : DotDims.WF S32x128 S128x3 S32x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S49x32x1024.size a ≤ S49x256x1024.size a
  hwx0_0 : ∀ i : grid0.Coords, EltTy.bits .f32 = 32 ∨ (Rect.block (s := S49x256x1024) S49x32x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .f32 = 32 ∨ (Rect.block (s := S512x128) S512x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x3.size a ≤ S128x3.size a
  hwx0_5 : ∀ i : grid0.Coords, EltTy.bits .f32 = 32 ∨ (Rect.block (s := S128x3) S128x3.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x3.size a ≤ S1x3.size a
  hwx0_6 : ∀ i : grid0.Coords, EltTy.bits .f32 = 32 ∨ (Rect.block (s := S1x3) S1x3.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x128.size a ≤ S256x128.size a
  hwx0_7 : ∀ i : grid0.Coords, EltTy.bits .f32 = 32 ∨ (Rect.block (s := S256x128) S32x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S32x3.size a ≤ S256x3.size a
  hwx0_8 : ∀ i : grid0.Coords, EltTy.bits .f32 = 32 ∨ (Rect.block (s := S256x3) S32x3.size (cc0_transform_8 i) (hinb0_8 i)).WholeWords (EltTy.packing .f32)

variable [Facts₀]

def dot_S32x1024_S1024x512_S32x512_1_0_0_1_n_n : DotDims S32x1024 S1024x512 S32x512 where
  lhsContracting := [1]
  rhsContracting := [0]
  lhsNonContracting := [0]
  rhsNonContracting := [1]
  lhsBatch := []
  rhsBatch := []
  wf := dot_S32x1024_S1024x512_S32x512_1_0_0_1_n_n_wf
def dot_S32x512_S512x128_S32x128_1_0_0_1_n_n : DotDims S32x512 S512x128 S32x128 where
  lhsContracting := [1]
  rhsContracting := [0]
  lhsNonContracting := [0]
  rhsNonContracting := [1]
  lhsBatch := []
  rhsBatch := []
  wf := dot_S32x512_S512x128_S32x128_1_0_0_1_n_n_wf
def dot_S32x128_S128x3_S32x3_1_0_0_1_n_n : DotDims S32x128 S128x3 S32x3 where
  lhsContracting := [1]
  rhsContracting := [0]
  lhsNonContracting := [0]
  rhsNonContracting := [1]
  lhsBatch := []
  rhsBatch := []
  wf := dot_S32x128_S128x3_S32x3_1_0_0_1_n_n_wf

abbrev win0_0 : Pipeline.Window sig grid0 :=
  Pipeline.Window.ofSpec (Memref.whole main_v1) S49x32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2_0) S32x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_1) S32x3.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S256x1024x7x7 : Shape := ⟨4, ![256, 1024, 7, 7]⟩
abbrev S1024x512 : Shape := ⟨2, ![1024, 512]⟩
abbrev S1x512 : Shape := ⟨2, ![1, 512]⟩
abbrev S512x128 : Shape := ⟨2, ![512, 128]⟩
abbrev S1x128 : Shape := ⟨2, ![1, 128]⟩
abbrev S128x3 : Shape := ⟨2, ![128, 3]⟩
abbrev S1x3 : Shape := ⟨2, ![1, 3]⟩
abbrev S256x1024x49 : Shape := ⟨3, ![256, 1024, 49]⟩
abbrev S256x1024 : Shape := ⟨2, ![256, 1024]⟩
abbrev S16x256x49 : Shape := ⟨3, ![16, 256, 49]⟩
abbrev S16x256 : Shape := ⟨2, ![16, 256]⟩
abbrev S_ : Shape := ⟨0, ![]⟩
abbrev S128x128 : Shape := ⟨2, ![128, 128]⟩
abbrev S256x256 : Shape := ⟨2, ![256, 256]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S256x3 : Shape := ⟨2, ![256, 3]⟩

abbrev nBuf : Space → Nat
  | .hbm => 18
  | .vmem => 12
  | .smem => 0
  | _ => 0

abbrev bufTy : (tb : Table) → Fin (tcTables nBuf tb) → BufTy
  | .hbm, ⟨0, _⟩ => ⟨S256x1024x7x7, .f32⟩
  | .hbm, ⟨1, _⟩ => ⟨S1024x512, .f32⟩
  | .hbm, ⟨2, _⟩ => ⟨S1x512, .f32⟩
  | .hbm, ⟨3, _⟩ => ⟨S512x128, .f32⟩
  | .hbm, ⟨4, _⟩ => ⟨S1x128, .f32⟩
  | .hbm, ⟨5, _⟩ => ⟨S128x3, .f32⟩
  | .hbm, ⟨6, _⟩ => ⟨S1x3, .f32⟩
  | .hbm, ⟨7, _⟩ => ⟨S256x1024x49, .f32⟩
  | .hbm, ⟨8, _⟩ => ⟨S256x1024, .f32⟩
  | .hbm, ⟨9, _⟩ => ⟨S_, .i32⟩
  | .hbm, ⟨10, _⟩ => ⟨S_, .f32⟩
  | .hbm, ⟨11, _⟩ => ⟨S128x128, .f32⟩
  | .hbm, ⟨12, _⟩ => ⟨S_, .i32⟩
  | .hbm, ⟨13, _⟩ => ⟨S_, .f32⟩
  | .hbm, ⟨14, _⟩ => ⟨S1x128, .f32⟩
  | .hbm, ⟨15, _⟩ => ⟨S256x256, .f32⟩
  | .hbm, ⟨16, _⟩ => ⟨S256x128, .f32⟩
  | .hbm, ⟨17, _⟩ => ⟨S256x3, .f32⟩
  | .local _ .vmem, ⟨0, _⟩ => ⟨S16x256x49, .f32⟩
  | .local _ .vmem, ⟨1, _⟩ => ⟨S16x256x49, .f32⟩
  | .local _ .vmem, ⟨2, _⟩ => ⟨S16x256, .f32⟩
  | .local _ .vmem, ⟨3, _⟩ => ⟨S16x256, .f32⟩
  | .local _ .vmem, ⟨4, _⟩ => ⟨S256x1024, .f32⟩
  | .local _ .vmem, ⟨5, _⟩ => ⟨S1024x512, .f32⟩
  | .local _ .vmem, ⟨6, _⟩ => ⟨S1x512, .f32⟩
  | .local _ .vmem, ⟨7, _⟩ => ⟨S512x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S256x256, .f32⟩
  | _, _ => ⟨S256x1024x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S16x256x49 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1024x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]

class Facts₀ : Prop where
  shapeCasts_S256x1024x7x7_S256x1024x49 : S256x1024x7x7.ShapeCasts S256x1024x49
  inb_S16x256x49_S16x256x49_0_0_0 : ∀ a, (![0, 0, 0] : Fin 3 → Nat) a + S16x256x49.size a ≤ S16x256x49.size a
  h_S16x256x49 : 0 < S16x256x49.numel
  shapeCasts_S16x256x49_S16x256x49 : S16x256x49.ShapeCasts S16x256x49
  reduces_S16x256x49_S16x256 : S16x256x49.Reduces [2] S16x256
  inb_S16x256_S16x256_0_0 : ∀ a, (![0, 0] : Fin 2 → Nat) a + S16x256.size a ≤ S16x256.size a
  h_S16x256 : 0 < S16x256.numel
  pads_S128x3_S128x128_000_01250 : S128x3.Pads (![0, 0] : Fin 2 → Nat) ![0, 125] ![0, 0] S128x128
  h_S_ : 0 < S_.numel
  pads_S1x3_S1x128_000_01250 : S1x3.Pads (![0, 0] : Fin 2 → Nat) ![0, 125] ![0, 0] S1x128
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  broadcasts_S1x512_S256x512 : S1x512.Broadcasts S256x512
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  broadcasts_S1x128_S256x128 : S1x128.Broadcasts S256x128
  reduces_S256x128_S256 : S256x128.Reduces [1] S256
  shapeCasts_S256_S256x1 : S256.ShapeCasts S256x1
  broadcasts_S256x1_S256x128 : S256x1.Broadcasts S256x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  inb_S256x256_S256x128_0_0 : ∀ a, (![0, 0] : Fin 2 → Nat) a + S256x128.size a ≤ S256x256.size a
  h_S256x128 : 0 < S256x128.numel
  inb_S256x256_S256x128_0_128 : ∀ a, (![0, 128] : Fin 2 → Nat) a + S256x128.size a ≤ S256x256.size a
  slices_S256x256_S256x128_0_0 : S256x256.Slices ![0, 0] S256x128
  slices_S256x256_S256x3_0_128 : S256x256.Slices ![0, 128] S256x3
  dot_S256x1024_S1024x512_S256x512_1_0_0_1_n_n_wf : DotDims.WF S256x1024 S1024x512 S256x512 [1] [0] [0] [1] [] []
  dot_S256x512_S512x128_S256x128_1_0_0_1_n_n_wf : DotDims.WF S256x512 S512x128 S256x128 [1] [0] [0] [1] [] []
  dot_S256x128_S128x128_S256x128_1_0_0_1_n_n_wf : DotDims.WF S256x128 S128x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x49.size a ≤ S256x1024x49.size a
  hwx0_0 : ∀ i : grid0.Coords, EltTy.bits .f32 = 32 ∨ (Rect.block (s := S256x1024x49) S16x256x49.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S256x1024.size a
  hwx0_1 : ∀ i : grid0.Coords, EltTy.bits .f32 = 32 ∨ (Rect.block (s := S256x1024) S16x256.size (cc0_transform_1 i) (hinb0_1 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S256x1024.size a
  hwx1_0 : ∀ i : grid1.Coords, EltTy.bits .f32 = 32 ∨ (Rect.block (s := S256x1024) S256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x512.size a
  hwx1_1 : ∀ i : grid1.Coords, EltTy.bits .f32 = 32 ∨ (Rect.block (s := S1024x512) S1024x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S512x128.size a
  hwx1_3 : ∀ i : grid1.Coords, EltTy.bits .f32 = 32 ∨ (Rect.block (s := S512x128) S512x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 1
  hreads1_7 : ∀ i i' : grid1.Coords, (∀ a, reads1_7 a = true → i a = i' a) → cc1_transform_7 i = cc1_transform_7 i'
  hinb1_7 : ∀ (i : grid1.Coords) a, (cc1_transform_7 i a + 1) * S256x256.size a ≤ S256x256.size a
  hwx1_7 : ∀ i : grid1.Coords, EltTy.bits .f32 = 32 ∨ (Rect.block (s := S256x256) S256x256.size (cc1_transform_7 i) (hinb1_7 i)).WholeWords (EltTy.packing .f32)

variable [Facts₀]

def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_v0) S16x256x49.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S256x1024.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S512x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v4) S256x256.size cc1_transform_7 reads1_7 true false 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== Proof.KernelBlocks.lean ====
/-
  The fused kernel's input blocks at a grid point, read back to the arguments.

  The first argument x : [256,1024,7,7] reaches the kernel transposed to [7,7,256,1024] and reshaped to [49,256,1024]:
  the staged array at (s, b, ch) is x at (b, ch, s / 7, s % 7), because the reshape keeps the row-major position and
  7·(s / 7) + s % 7 = s.  Point t of the grid of 8 takes rows 32·t … 32·t + 31 of the batch axis of that array (a block's
  coordinate is its block index times the block's extent plus the coordinate inside the block) and the whole of every
  weight and bias.
-/
import proofs.«145543_g2000702716457357_pallasbulk_1135_15_alg».proof.Proof.Gen.KernelIdeal.Frame
import Idealize.ShloMosaic.Lib.Pipeline.Value
import Idealize.ShloMosaic.Lib.ValueIdx
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.Head.KernelRun

open Cert.KernelIdeal Cert.KernelIdeal.Gen

/-! ## The input as the region finds it -/

/-- The transpose [2,3,0,1] of `x : [256,1024,7,7]` followed by the reshape [7,7,256,1024] → [49,256,1024], read at
    (s, b, ch), is `x` at (b, ch, s / 7, s % 7): the reshape keeps the row-major position, 7·(s/7) + s%7 = s. -/
theorem spatialFirst_apply {α : Type} (x : (⟨4, ![256, 1024, 7, 7]⟩ : Shape).Idx → α)
    (hT : (⟨4, ![256, 1024, 7, 7]⟩ : Shape).Transposes [2, 3, 0, 1] ⟨4, ![7, 7, 256, 1024]⟩)
    (hC : (⟨4, ![7, 7, 256, 1024]⟩ : Shape).ShapeCasts ⟨3, ![49, 256, 1024]⟩)
    (s : Fin 49) (b : Fin 256) (ch : Fin 1024) :
    shapeCast ⟨3, ![49, 256, 1024]⟩ (transpose ⟨4, ![7, 7, 256, 1024]⟩ [2, 3, 0, 1] x hT) hC (ix3 s b ch)
      = x (ix4 b ch ⟨s.val / 7, by have := s.isLt; omega⟩ ⟨s.val % 7, by omega⟩) := by
  rw [shapeCast_apply _ hC (ix3 s b ch) (ix4 (⟨s.val / 7, by have := s.isLt; omega⟩ : Fin 7) (⟨s.val % 7, by omega⟩ : Fin 7) b ch) (by
    rw [Shape.rowMajor_val_four, Shape.rowMajor_val_three]
    show ((s.val / 7 * 7 + s.val % 7) * 256 + b.val) * 1024 + ch.val = (s.val * 256 + b.val) * 1024 + ch.val
    omega)]
  exact transpose_apply _ x hT _ _ fun c => match c with | ⟨0, _⟩ => rfl | ⟨1, _⟩ => rfl | ⟨2, _⟩ => rfl | ⟨3, _⟩ => rfl

variable (m : (ℓ : Loc nD τ sig) → Buf (Elt Ideal) ℓ)

/-- The staged array of input window 0 when the region is entered: the two host operations applied to the first argument. -/
theorem V_spatialFirst (c : Dev nD) : (V m c main_v1 : S49x256x1024.Idx → EReal)
    = shapeCast S49x256x1024 (transpose S7x7x256x1024 [2, 3, 0, 1] (m ((c : Thread nD τ).loc main_arg0)) transposes_S256x1024x7x7_S7x7x256x1024_2_3_0_1) shapeCasts_S7x7x256x1024_S49x256x1024 := by
  dsimp only [Gen.V, Gen.hostOps0]
  after_results
  rfl

/-! ## The index maps over the grid -/

/-- The zero offsets of a rank-2 whole-block access. -/
theorem hz2 : (![0, 0] : Fin 2 → Nat) = fun _ => 0 := funext fun a => by fin_cases a <;> rfl
/-- The zero offsets of a rank-3 whole-block access. -/
theorem hz3 : (![0, 0, 0] : Fin 3 → Nat) = fun _ => 0 := funext fun a => by fin_cases a <;> rfl

/-- Point `t` of the grid takes batch tile `t` of the staged input and of both results, and the whole of every weight and bias. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- The grid has 8 points. -/
theorem point_lt (t : Fin cfg0.N) : t.val < 8 := lt_of_lt_of_eq t.isLt N_0

/-- Row `p` of batch tile `t`. -/
def rowOf (t : Fin cfg0.N) (p : Fin 32) : Fin 256 := ⟨32 * t.val + p.val, by have := point_lt t; have := p.isLt; omega⟩

/-! ## The input blocks at a point -/

/-- Input window 0's block at point `t`, at (s, p, ch), is the first argument at (32·t + p, ch, s / 7, s % 7). -/
theorem iblk0_apply (c : Dev nD) (t : Fin cfg0.N) (s : Fin 49) (p : Fin 32) (ch : Fin 1024) :
    (iblk m c 0 t : Vec Ideal S49x32x1024 .f32) (ix3 s p ch)
      = (m ((c : Thread nD τ).loc main_arg0) : S256x1024x7x7.Idx → EReal) (ix4 (rowOf t p) ch ⟨s.val / 7, by have := s.isLt; omega⟩ ⟨s.val % 7, by omega⟩) := by
  obtain ⟨e0, e1, e2, -⟩ := idx_facts t
  unfold iblk
  rw [View.read_apply]
  show V m c main_v1 (((cfg0.win 0).blk t).view.emb (ix3 s p ch)) = _
  have hemb : ((cfg0.win 0).blk t).view.emb (ix3 s p ch) = (ix3 s (rowOf t p) ch : S49x256x1024.Idx) := by
    funext a; apply Fin.ext
    match a with
    | ⟨0, _⟩ => show win0_0.index t (0 : Fin 3) * 49 + 1 * s.val = s.val; omega
    | ⟨1, _⟩ => show win0_0.index t (1 : Fin 3) * 32 + 1 * p.val = 32 * t.val + p.val; omega
    | ⟨2, _⟩ => show win0_0.index t (2 : Fin 3) * 1024 + 1 * ch.val = ch.val; omega
  rw [hemb, V_spatialFirst m c]
  exact spatialFirst_apply _ _ _ s (rowOf t p) ch

/-- Input window 1's block at every point is the whole of argument 1. -/
theorem iblk1_eq (c : Dev nD) (t : Fin cfg0.N) :
    (iblk m c 1 t : Vec Ideal S1024x512 .f32) = (m ((c : Thread nD τ).loc main_arg1) : S1024x512.Idx → EReal) := by
  obtain ⟨-, -, -, e0, e1, -⟩ := idx_facts t
  unfold iblk
  funext y
  rw [View.read_apply]
  show V m c main_arg1 (((cfg0.win 1).blk t).view.emb y) = _
  rw [V_main_arg1 m c]
  refine congrArg (m ((c : Thread nD τ).loc main_arg1) : S1024x512.Idx → EReal) ?_
  funext a; apply Fin.ext
  match a with
  | ⟨0, _⟩ => show win0_1.index t (0 : Fin 2) * 1024 + 1 * (y 0).val = (y 0).val; omega
  | ⟨1, _⟩ => show win0_1.index t (1 : Fin 2) * 512 + 1 * (y 1).val = (y 1).val; omega

/-- Input window 2's block at every point is the whole of argument 2. -/
theorem iblk2_eq (c : Dev nD) (t : Fin cfg0.N) :
    (iblk m c 2 t : Vec Ideal S1x512 .f32) = (m ((c : Thread nD τ).loc main_arg2) : S1x512.Idx → EReal) := by
  obtain ⟨-, -, -, -, -, e0, e1, -⟩ := idx_facts t
  unfold iblk
  funext y
  rw [View.read_apply]
  show V m c main_arg2 (((cfg0.win 2).blk t).view.emb y) = _
  rw [V_main_arg2 m c]
  refine congrArg (m ((c : Thread nD τ).loc main_arg2) : S1x512.Idx → EReal) ?_
  funext a; apply Fin.ext
  match a with
  | ⟨0, _⟩ => show win0_2.index t (0 : Fin 2) * 1 + 1 * (y 0).val = (y 0).val; omega
  | ⟨1, _⟩ => show win0_2.index t (1 : Fin 2) * 512 + 1 * (y 1).val = (y 1).val; omega

/-- Input window 3's block at every point is the whole of argument 3. -/
theorem iblk3_eq (c : Dev nD) (t : Fin cfg0.N) :
    (iblk m c 3 t : Vec Ideal S512x128 .f32) = (m ((c : Thread nD τ).loc main_arg3) : S512x128.Idx → EReal) := by
  obtain ⟨-, -, -, -, -, -, -, e0, e1, -⟩ := idx_facts t
  unfold iblk
  funext y
  rw [View.read_apply]
  show V m c main_arg3 (((cfg0.win 3).blk t).view.emb y) = _
  rw [V_main_arg3 m c]
  refine congrArg (m ((c : Thread nD τ).loc main_arg3) : S512x128.Idx → EReal) ?_
  funext a; apply Fin.ext
  match a with
  | ⟨0, _⟩ => show win0_3.index t (0 : Fin 2) * 512 + 1 * (y 0).val = (y 0).val; omega
  | ⟨1, _⟩ => show win0_3.index t (1 : Fin 2) * 128 + 1 * (y 1).val = (y 1).val; omega

/-- Input window 4's block at every point is the whole of argument 4. -/
theorem iblk4_eq (c : Dev nD) (t : Fin cfg0.N) :
    (iblk m c 4 t : Vec Ideal S1x128 .f32) = (m ((c : Thread nD τ).loc main_arg4) : S1x128.Idx → EReal) := by
  obtain ⟨-, -, -, -, -, -, -, -, -, e0, e1, -⟩ := idx_facts t
  unfold iblk
  funext y
  rw [View.read_apply]
  show V m c main_arg4 (((cfg0.win 4).blk t).view.emb y) = _
  rw [V_main_arg4 m c]
  refine congrArg (m ((c : Thread nD τ).loc main_arg4) : S1x128.Idx → EReal) ?_
  funext a; apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Input window 5's block at every point is the whole of argument 5. -/
theorem iblk5_eq (c : Dev nD) (t : Fin cfg0.N) :
    (iblk m c 5 t : Vec Ideal S128x3 .f32) = (m ((c : Thread nD τ).loc main_arg5) : S128x3.Idx → EReal) := by
  obtain ⟨-, -, -, -, -, -, -, -, -, -, -, e0, e1, -⟩ := idx_facts t
  unfold iblk
  funext y
  rw [View.read_apply]
  show V m c main_arg5 (((cfg0.win 5).blk t).view.emb y) = _
  rw [V_main_arg5 m c]
  refine congrArg (m ((c : Thread nD τ).loc main_arg5) : S128x3.Idx → EReal) ?_
  funext a; apply Fin.ext
  match a with
  | ⟨0, _⟩ => show win0_5.index t (0 : Fin 2) * 128 + 1 * (y 0).val = (y 0).val; omega
  | ⟨1, _⟩ => show win0_5.index t (1 : Fin 2) * 3 + 1 * (y 1).val = (y 1).val; omega

/-- Input window 6's block at every point is the whole of argument 6. -/
theorem iblk6_eq (c : Dev nD) (t : Fin cfg0.N) :
    (iblk m c 6 t : Vec Ideal S1x3 .f32) = (m ((c : Thread nD τ).loc main_arg6) : S1x3.Idx → EReal) := by
  obtain ⟨-, -, -, -, -, -, -, -, -, -, -, -, -, e0, e1, -⟩ := idx_facts t
  unfold iblk
  funext y
  rw [View.read_apply]
  show V m c main_arg6 (((cfg0.win 6).blk t).view.emb y) = _
  rw [V_main_arg6 m c]
  refine congrArg (m ((c : Thread nD τ).loc main_arg6) : S1x3.Idx → EReal) ?_
  funext a; apply Fin.ext
  match a with
  | ⟨0, _⟩ => show win0_6.index t (0 : Fin 2) * 1 + 1 * (y 0).val = (y 0).val; omega
  | ⟨1, _⟩ => show win0_6.index t (1 : Fin 2) * 3 + 1 * (y 1).val = (y 1).val; omega

end Cert.Head.KernelRun

end
-- ==== Proof.Spec.lean ====
/-
  The classifier head as plain formulas on the extended reals.

  A feature row `row : Fin K → EReal` goes through two rectified affine layers, is scaled to unit Euclidean length
  (the squared length bounded below by a small positive constant before the reciprocal square root), and a last affine
  layer gives the logits.  The feature row of batch entry `b` is the mean over the 7 × 7 spatial positions of the input,
  taken as the sum of the 49 entries times a fixed constant (the same constant in both programs).  Sums are sums in the
  extended reals, whose addition is commutative and associative, so no order of summation is recorded.
-/
import Idealize.ShloMosaic.Lib.ValueIdx
import Idealize.ShloMosaic.PureOps.Ideal

noncomputable section

open scoped BigOperators

namespace Cert.Head

open Idealize.ShloMosaic Idealize.ShloMosaic.ValueIdx

variable {K H D n : Nat}

/-- The first layer at hidden unit `j`: max (∑ i, row i · w1[i,j] + b1[0,j], 0). -/
def hidden1 (row : Fin K → Ideal .f32) (w1 : FVec Ideal ⟨2, ![K, H]⟩ .f32) (b1 : FVec Ideal ⟨2, ![1, H]⟩ .f32) (j : Fin H) : Ideal .f32 :=
  max ((∑ i : Fin K, row i * w1 (ix2 i j)) + b1 (ix2 (0 : Fin 1) j)) (Ideal.ofBits .f32 0x00000000#32)

/-- The second layer at unit `q`: max (∑ j, hidden1 j · w2[j,q] + b2[0,q], 0). -/
def hidden2 (row : Fin K → Ideal .f32) (w1 : FVec Ideal ⟨2, ![K, H]⟩ .f32) (b1 : FVec Ideal ⟨2, ![1, H]⟩ .f32)
    (w2 : FVec Ideal ⟨2, ![H, D]⟩ .f32) (b2 : FVec Ideal ⟨2, ![1, D]⟩ .f32) (q : Fin D) : Ideal .f32 :=
  max ((∑ j : Fin H, hidden1 row w1 b1 j * w2 (ix2 j q)) + b2 (ix2 (0 : Fin 1) q)) (Ideal.ofBits .f32 0x00000000#32)

/-- The squared Euclidean length of the second layer's output. -/
def sumsq (row : Fin K → Ideal .f32) (w1 : FVec Ideal ⟨2, ![K, H]⟩ .f32) (b1 : FVec Ideal ⟨2, ![1, H]⟩ .f32)
    (w2 : FVec Ideal ⟨2, ![H, D]⟩ .f32) (b2 : FVec Ideal ⟨2, ![1, D]⟩ .f32) : Ideal .f32 :=
  ∑ q : Fin D, hidden2 row w1 b1 w2 b2 q * hidden2 row w1 b1 w2 b2 q

/-- The normalized feature at `q`: hidden2 q · rsqrt (max (sumsq, ε)). -/
def unitRow (row : Fin K → Ideal .f32) (w1 : FVec Ideal ⟨2, ![K, H]⟩ .f32) (b1 : FVec Ideal ⟨2, ![1, H]⟩ .f32)
    (w2 : FVec Ideal ⟨2, ![H, D]⟩ .f32) (b2 : FVec Ideal ⟨2, ![1, D]⟩ .f32) (q : Fin D) : Ideal .f32 :=
  hidden2 row w1 b1 w2 b2 q * Ideal.rsqrt (max (sumsq row w1 b1 w2 b2) (Ideal.ofBits .f32 0x179ABE15#32))

/-- The logit of class `j`: ∑ q, unitRow q · w3[q,j] + b3[0,j]. -/
def logit (row : Fin K → Ideal .f32) (w1 : FVec Ideal ⟨2, ![K, H]⟩ .f32) (b1 : FVec Ideal ⟨2, ![1, H]⟩ .f32)
    (w2 : FVec Ideal ⟨2, ![H, D]⟩ .f32) (b2 : FVec Ideal ⟨2, ![1, D]⟩ .f32)
    (w3 : FVec Ideal ⟨2, ![D, n]⟩ .f32) (b3 : FVec Ideal ⟨2, ![1, n]⟩ .f32) (j : Fin n) : Ideal .f32 :=
  (∑ q : Fin D, unitRow row w1 b1 w2 b2 q * w3 (ix2 q j)) + b3 (ix2 (0 : Fin 1) j)

/-- The pooled feature row of batch entry `b`: at channel `c`, the sum over the 49 spatial positions `s = 7·h + w`
    of `x[b, c, h, w]`, times the constant both programs use for 1/49. -/
def pooledRow (x : FVec Ideal ⟨4, ![256, 1024, 7, 7]⟩ .f32) (b : Fin 256) : Fin 1024 → Ideal .f32 := fun c =>
  (∑ s : Fin 49, x (ix4 b c ⟨s.val / 7, by have := s.isLt; omega⟩ ⟨s.val % 7, by omega⟩)) * Ideal.ofBits .f32 0x3CA72F05#32

/-- The first result: the normalized features of every batch entry. -/
def unitArr (x : FVec Ideal ⟨4, ![256, 1024, 7, 7]⟩ .f32) (w1 : FVec Ideal ⟨2, ![1024, 512]⟩ .f32) (b1 : FVec Ideal ⟨2, ![1, 512]⟩ .f32)
    (w2 : FVec Ideal ⟨2, ![512, 128]⟩ .f32) (b2 : FVec Ideal ⟨2, ![1, 128]⟩ .f32) : FVec Ideal ⟨2, ![256, 128]⟩ .f32 :=
  fun i => unitRow (pooledRow x (i 0)) w1 b1 w2 b2 (i 1)

/-- The second result: the three logits of every batch entry. -/
def logitArr (x : FVec Ideal ⟨4, ![256, 1024, 7, 7]⟩ .f32) (w1 : FVec Ideal ⟨2, ![1024, 512]⟩ .f32) (b1 : FVec Ideal ⟨2, ![1, 512]⟩ .f32)
    (w2 : FVec Ideal ⟨2, ![512, 128]⟩ .f32) (b2 : FVec Ideal ⟨2, ![1, 128]⟩ .f32)
    (w3 : FVec Ideal ⟨2, ![128, 3]⟩ .f32) (b3 : FVec Ideal ⟨2, ![1, 3]⟩ .f32) : FVec Ideal ⟨2, ![256, 3]⟩ .f32 :=
  fun i => logit (pooledRow x (i 0)) w1 b1 w2 b2 w3 b3 (i 1)

end Cert.Head

end
-- ==== Proof.LibMlpAt.lean ====
/-
  The two-layer perceptron with rectifiers, read at one entry.

  For matrices x : [N, K], wa : [K, D], wb : [D, D] and one-row biases ba, bb : [1, D] the value at (r, q) is
      max (∑ j, max (∑ i, x[r,i] · wa[i,j] + ba[0,j]) 0 · wb[j,q] + bb[0,q]) 0
  on the extended reals. Two spellings of that function occur: the host's (two `dot_general`s, the biases broadcast
  along the rows, the rectifier a maximum with a broadcast zero) and a tile's (two matrix products into a zero
  accumulator with the operands narrowed to bf16 first, the biases broadcast as vectors). At the ideal values a change of
  format is the identity and both products are plain sums over the contracted coordinate, so each spelling reads the
  formula above at every entry; nothing here needs the entries to be finite.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Mlp

open Idealize.ShloMosaic Idealize.ShloMosaic.ValueIdx

/-! ## A plain matrix product's dimension numbers, and its sum -/

/-- The dimension numbers of a plain product [m, k] × [k, n] → [m, n]: contract the left operand's axis 1 with the
    right operand's axis 0. -/
abbrev D2 {m k n : Nat} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

variable {m k n : Nat}

/-- The left operand's index at output (a, b) and contracted coordinate c is (a, c). -/
theorem lhsIdx_D2 (w : DotDims.WF ⟨2, ![m, k]⟩ ⟨2, ![k, n]⟩ ⟨2, ![m, n]⟩ [1] [0] [0] [1] [] []) (a : Fin m) (b : Fin n) (c : Fin k) :
    (D2 w).lhsIdx (ix2 a b) ((contrEquiv1 (D2 w) k rfl rfl).symm c) = ix2 a c := by
  have c2 := contrEquiv1_symm_val (D2 w) k rfl rfl c
  funext ax; apply Fin.ext
  match ax with
  | ⟨0, _⟩ => simp [DotDims.lhsIdx]; rfl
  | ⟨1, _⟩ => simp [DotDims.lhsIdx]; exact c2

/-- The right operand's index at output (a, b) and contracted coordinate c is (c, b). -/
theorem rhsIdx_D2 (w : DotDims.WF ⟨2, ![m, k]⟩ ⟨2, ![k, n]⟩ ⟨2, ![m, n]⟩ [1] [0] [0] [1] [] []) (a : Fin m) (b : Fin n) (c : Fin k) :
    (D2 w).rhsIdx (ix2 a b) ((contrEquiv1 (D2 w) k rfl rfl).symm c) = ix2 c b := by
  have c2 := contrEquiv1_symm_val (D2 w) k rfl rfl c
  funext ax; apply Fin.ext
  match ax with
  | ⟨0, _⟩ => simp [DotDims.rhsIdx]; exact c2
  | ⟨1, _⟩ => simp [DotDims.rhsIdx]; rfl

/-- The host's product at (a, b): the sum over the contracted coordinate of the entries' products. -/
theorem dotGeneral_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (D2 w) prec A B (ix2 a b) = ∑ c : Fin k, A (ix2 a c) * B (ix2 c b) := by
  show FloatOps.dotGeneral _ prec _ A B (ix2 a b) = _
  rw [Ideal.dotGeneral_apply, ← Equiv.sum_comp (contrEquiv1 (D2 w) k rfl rfl).symm]
  refine Finset.sum_congr rfl fun c _ => ?_
  rw [lhsIdx_D2, rhsIdx_D2]

/-- A tile's product into a zero accumulator at (a, b): the same sum. -/
theorem matmul_zero_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (D2 w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (D2 w) k rfl rfl).symm]
  refine Finset.sum_congr rfl fun c _ => ?_
  rw [lhsIdx_D2, rhsIdx_D2]

/-! ## Broadcasts of a one-row bias and of a scalar, at an entry -/

/-- A [1, D] row broadcast along the rows of [N, D] reads, at (r, q), the row at q. -/
theorem bcastRow_at {N D : Nat} {α : Type} (h : (⟨2, ![1, D]⟩ : Shape).BroadcastsInDim ⟨2, ![N, D]⟩ (![0, 1] : Fin 2 → Fin 2))
    (v : (⟨2, ![1, D]⟩ : Shape).Idx → α) (r : Fin N) (q : Fin D) :
    broadcastInDim ⟨2, ![N, D]⟩ (![0, 1] : Fin 2 → Fin 2) h v (ix2 r q) = v (ix2 (0 : Fin 1) q) := by
  refine broadcastInDim_apply _ h v (ix2 r q) (ix2 (0 : Fin 1) q) fun ax => ?_
  match ax with
  | ⟨0, _⟩ => rfl
  | ⟨1, _⟩ =>
    show q.val = if D = 1 then 0 else q.val
    split
    · have := q.isLt; omega
    · rfl

/-- A scalar broadcast to [N, D] reads the scalar everywhere. -/
theorem bcastScalar_at {N D : Nat} {α : Type} (h : (⟨0, ![]⟩ : Shape).BroadcastsInDim ⟨2, ![N, D]⟩ (![] : Fin 0 → Fin 2))
    (v : (⟨0, ![]⟩ : Shape).Idx → α) (i : (⟨2, ![N, D]⟩ : Shape).Idx) :
    broadcastInDim ⟨2, ![N, D]⟩ (![] : Fin 0 → Fin 2) h v i = v ix0 :=
  broadcastInDim_apply _ h v i ix0 fun ax => ax.elim0

/-- A [D] vector viewed as its one row [1, D] is the vector broadcast along a new leading unit axis: both read the
    vector's entry i at (0, i). -/
theorem rowCast_eq_bcast {D : Nat} {α : Type} (x : (⟨1, ![D]⟩ : Shape).Idx → α) (h : (⟨1, ![D]⟩ : Shape).ShapeCasts ⟨2, ![1, D]⟩)
    (h' : (⟨1, ![D]⟩ : Shape).BroadcastsInDim ⟨2, ![1, D]⟩ (![1] : Fin 1 → Fin 2)) :
    shapeCast ⟨2, ![1, D]⟩ x h = broadcastInDim ⟨2, ![1, D]⟩ (![1] : Fin 1 → Fin 2) h' x := by
  funext j
  obtain ⟨u, i, rfl⟩ : ∃ (u : Fin 1) (i : Fin D), j = ix2 u i := ⟨j 0, j 1, eq_ix2 j⟩
  rw [shapeCast_a_1a_apply]
  refine (broadcastInDim_apply _ h' x (ix2 u i) (ix1 i) fun ax => ?_).symm
  match ax with
  | ⟨0, _⟩ =>
    show i.val = if D = 1 then 0 else i.val
    split
    · have := i.isLt; omega
    · rfl

/-! ## The perceptron at an entry -/

/-- The value at (r, q): the second layer's rectified affine map of the first layer's. -/
def mlpVal {N K D : Nat} (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) : Ideal .f32 :=
  max ((∑ j : Fin D, max ((∑ i : Fin K, x (ix2 r i) * wa (ix2 i j)) + ba (ix2 (0 : Fin 1) j)) (Ideal.ofBits .f32 0x00000000#32) * wb (ix2 j q))
    + bb (ix2 (0 : Fin 1) q)) (Ideal.ofBits .f32 0x00000000#32)

/-- The value at row r depends only on row r of x: two inputs with equal rows give equal values. -/
theorem mlpVal_congr_row {N N' K D : Nat} (x : FVec Ideal ⟨2, ![N, K]⟩ .f32) (x' : FVec Ideal ⟨2, ![N', K]⟩ .f32)
    (wa : FVec Ideal ⟨2, ![K, D]⟩ .f32) (ba : FVec Ideal ⟨2, ![1, D]⟩ .f32) (wb : FVec Ideal ⟨2, ![D, D]⟩ .f32) (bb : FVec Ideal ⟨2, ![1, D]⟩ .f32)
    (r : Fin N) (r' : Fin N') (hrow : ∀ i : Fin K, x (ix2 r i) = x' (ix2 r' i)) (q : Fin D) :
    mlpVal x wa ba wb bb r q = mlpVal x' wa ba wb bb r' q := by
  unfold mlpVal
  simp only [hrow]

/-- The host's spelling: two `dot_general`s, the biases broadcast along the rows, each rectifier a maximum with a
    broadcast zero. -/
def mlpHost {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![N, D]⟩ .f32 :=
  maximumf (addf (Host.dotGeneral (D2 wB) none
      (maximumf (addf (Host.dotGeneral (D2 wA) none x wa) (broadcastInDim ⟨2, ![N, D]⟩ (![0, 1] : Fin 2 → Fin 2) hb ba))
        (broadcastInDim ⟨2, ![N, D]⟩ (![] : Fin 0 → Fin 2) hz (constant (F := Ideal) ⟨0, ![]⟩ .f32 0x00000000#32))) wb)
      (broadcastInDim ⟨2, ![N, D]⟩ (![0, 1] : Fin 2 → Fin 2) hb bb))
    (broadcastInDim ⟨2, ![N, D]⟩ (![] : Fin 0 → Fin 2) hz (constant (F := Ideal) ⟨0, ![]⟩ .f32 0x00000000#32))

theorem mlpHost_at {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) :
    mlpHost wA wB hb hz x wa ba wb bb (ix2 r q) = mlpVal x wa ba wb bb r q := by
  unfold mlpHost mlpVal
  rw [maximumf_apply, addf_apply, dotGeneral_at, bcastRow_at, bcastScalar_at, constant_apply]
  refine congrArg (fun s => max (s + bb (ix2 (0 : Fin 1) q)) (Ideal.ofBits .f32 0x00000000#32)) ?_
  refine Finset.sum_congr rfl fun j _ => ?_
  rw [maximumf_apply, addf_apply, dotGeneral_at, bcastRow_at, bcastScalar_at, constant_apply]

/-- The host's spelling with the biases given as vectors [D], each made a row by a broadcast along a new unit axis. -/
def mlpHostV {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) : FVec Ideal ⟨2, ![N, D]⟩ .f32 :=
  mlpHost wA wB hb hz x wa (broadcastInDim ⟨2, ![1, D]⟩ (![1] : Fin 1 → Fin 2) hr ba) wb
    (broadcastInDim ⟨2, ![1, D]⟩ (![1] : Fin 1 → Fin 2) hr bb)

/-- With the biases reshaped to one row instead: the same array. -/
theorem mlpHost_rowCast {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (hc : (⟨1, ![D]⟩ : Shape).ShapeCasts ⟨2, ![1, D]⟩)
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) :
    mlpHost wA wB hb hz x wa (shapeCast ⟨2, ![1, D]⟩ ba hc) wb (shapeCast ⟨2, ![1, D]⟩ bb hc)
      = mlpHostV wA wB hb hz hr x wa ba wb bb := by
  unfold mlpHostV
  rw [rowCast_eq_bcast ba hc hr, rowCast_eq_bcast bb hc hr]

/-- A tile's spelling: the operands narrowed to bf16, two products into a zero accumulator, the biases broadcast as
    vectors, each rectifier a maximum with a splat zero. -/
def mlpTile {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![T, D]⟩ .f32 :=
  maximumf (addf (matmul (D2 wB) none
      (truncf .bf16 (maximumf (addf (matmul (D2 wA) none (truncf .bf16 x hlt) (truncf .bf16 wa hlt) (constant ⟨2, ![T, D]⟩ .f32 0x00000000#32))
          (broadcastTo ⟨2, ![T, D]⟩ ba hb)) (broadcast ⟨2, ![T, D]⟩ (Scalar.ofBits (F := Ideal) .f32 0x00000000#32))) hlt)
      (truncf .bf16 wb hlt) (constant ⟨2, ![T, D]⟩ .f32 0x00000000#32))
      (broadcastTo ⟨2, ![T, D]⟩ bb hb))
    (broadcast ⟨2, ![T, D]⟩ (Scalar.ofBits (F := Ideal) .f32 0x00000000#32))

theorem mlpTile_at {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (p : Fin T) (q : Fin D) :
    mlpTile wA wB hb hlt x wa ba wb bb (ix2 p q) = mlpVal x wa ba wb bb p q := by
  unfold mlpTile mlpVal
  rw [maximumf_apply, addf_apply, matmul_zero_at, broadcastTo_1b_ab_apply, broadcast_apply]
  refine congrArg (fun s => max (s + bb (ix2 (0 : Fin 1) q)) (Ideal.ofBits .f32 0x00000000#32)) ?_
  refine Finset.sum_congr rfl fun j _ => ?_
  rw [truncf_apply, truncf_apply, maximumf_apply, addf_apply, matmul_zero_at, broadcastTo_1b_ab_apply, broadcast_apply]
  refine congrArg (fun s => max (s + ba (ix2 (0 : Fin 1) j)) (Ideal.ofBits .f32 0x00000000#32) * wb (ix2 j q)) ?_
  refine Finset.sum_congr rfl fun i _ => ?_
  rw [truncf_apply, truncf_apply]

end Cert.Mlp

end
-- ==== Proof.LibKeepdims.lean ====
/-
  A reduction along the last axis of an `[a, b]` array that keeps its dimension (`keepdims=True`): the `[a]` result is
  re-laid as a column `[a, 1]` and the column is spread back over the `b` lanes of every row. Read at an index, the
  column at `(i, u)` is the vector at `i`, the spread column at `(p, c)` is the column at `(p, 0)`, and the source
  index that a one-axis reduction along axis 1 visits for row `p` and coordinate `k` is `(p, k)`. Stated for any
  extents `a`, `b` and any element type.
-/
import Idealize.ShloMosaic.Lib.Pipeline.Value
import Idealize.ShloMosaic.Lib.ValueIdx
import Idealize.ShloMosaic.PureOps.Reduce

namespace Cert.Lib.Keepdims

open Idealize.ShloMosaic Idealize.ShloMosaic.ValueIdx

variable {α : Type}

/-- An `[a]` vector cast to the column `[a, 1]` reads, at `(i, u)`, the vector at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector re-laid as a column and spread over the lanes reads, at `(p, c)`, the vector at `p`. -/
theorem column_spread_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-- A one-axis reduction of `[a, b]` along axis 1 visits, for row `p` and coordinate `k` of the reduced axis, the
    source index `(p, k)`. -/
theorem lift_axis1 {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

end Cert.Lib.Keepdims
-- ==== Proof.HeadAt.lean ====
/-
  The classifier head's array spelling, read at one entry.

  For a feature matrix x : [N, K] the head is spelled with whole-array operations: two rectified affine layers (a matrix
  product into a zero accumulator, a one-row bias spread over the rows, a maximum with a splat zero), the row sums of the
  squares kept as a column [N, 1], the column bounded below, its reciprocal square root spread back over the lanes and
  multiplied in, and a last affine layer. Read at (p, q) each array is the plain formula of row p of x
  (`Cert.Head.hidden2`, `unitRow`, `logit`): every step is the operation's value at an index, and the products are
  sums over the contracted coordinate. Stated for any extents; nothing needs the entries to be finite.
-/
import proofs.«145543_g2000702716457357_pallasbulk_1135_15_alg».proof.Proof.Spec
import proofs.«145543_g2000702716457357_pallasbulk_1135_15_alg».proof.Proof.LibMlpAt
import proofs.«145543_g2000702716457357_pallasbulk_1135_15_alg».proof.Proof.LibKeepdims
import Idealize.ShloMosaic.PureOps.Ideal.Laws
import Idealize.ShloMosaic.Lib.ValueLayout

noncomputable section

open scoped BigOperators

namespace Cert.Head

open Idealize.ShloMosaic Idealize.ShloMosaic.ValueIdx

variable {N K H D n : Nat}

/-! ## One rectified affine layer -/

/-- max (x · w + b, 0) as arrays: a product into a zero accumulator, the one-row bias spread over the rows, a maximum
    with a splat zero. -/
def reluLayer (w : DotDims.WF ⟨2, ![N, K]⟩ ⟨2, ![K, H]⟩ ⟨2, ![N, H]⟩ [1] [0] [0] [1] [] [])
    (hb : (⟨2, ![1, H]⟩ : Shape).Broadcasts ⟨2, ![N, H]⟩)
    (x : FVec Ideal ⟨2, ![N, K]⟩ .f32) (w1 : FVec Ideal ⟨2, ![K, H]⟩ .f32) (b1 : FVec Ideal ⟨2, ![1, H]⟩ .f32) :
    FVec Ideal ⟨2, ![N, H]⟩ .f32 :=
  maximumf (addf (matmul (Cert.Mlp.D2 w) none x w1 (constant ⟨2, ![N, H]⟩ .f32 0x00000000#32)) (broadcastTo ⟨2, ![N, H]⟩ b1 hb))
    (broadcast ⟨2, ![N, H]⟩ (Scalar.ofBits (F := Ideal) .f32 0x00000000#32))

theorem reluLayer_at (w : DotDims.WF ⟨2, ![N, K]⟩ ⟨2, ![K, H]⟩ ⟨2, ![N, H]⟩ [1] [0] [0] [1] [] [])
    (hb : (⟨2, ![1, H]⟩ : Shape).Broadcasts ⟨2, ![N, H]⟩)
    (x : FVec Ideal ⟨2, ![N, K]⟩ .f32) (w1 : FVec Ideal ⟨2, ![K, H]⟩ .f32) (b1 : FVec Ideal ⟨2, ![1, H]⟩ .f32)
    (p : Fin N) (j : Fin H) :
    reluLayer w hb x w1 b1 (ix2 p j)
      = max ((∑ i : Fin K, x (ix2 p i) * w1 (ix2 i j)) + b1 (ix2 (0 : Fin 1) j)) (Ideal.ofBits .f32 0x00000000#32) := by
  unfold reluLayer
  rw [maximumf_apply, addf_apply, Cert.Mlp.matmul_zero_at, broadcastTo_1b_ab_apply, broadcast_apply]
  rfl

/-- The first layer at (p, j) is `hidden1` of row p. -/
theorem reluLayer_eq_hidden1 (w : DotDims.WF ⟨2, ![N, K]⟩ ⟨2, ![K, H]⟩ ⟨2, ![N, H]⟩ [1] [0] [0] [1] [] [])
    (hb : (⟨2, ![1, H]⟩ : Shape).Broadcasts ⟨2, ![N, H]⟩)
    (x : FVec Ideal ⟨2, ![N, K]⟩ .f32) (w1 : FVec Ideal ⟨2, ![K, H]⟩ .f32) (b1 : FVec Ideal ⟨2, ![1, H]⟩ .f32)
    (p : Fin N) (j : Fin H) :
    reluLayer w hb x w1 b1 (ix2 p j) = hidden1 (fun i => x (ix2 p i)) w1 b1 j :=
  reluLayer_at w hb x w1 b1 p j

/-! ## Two layers -/

/-- The second layer of the first, as arrays. -/
def hiddenArr (wA : DotDims.WF ⟨2, ![N, K]⟩ ⟨2, ![K, H]⟩ ⟨2, ![N, H]⟩ [1] [0] [0] [1] [] [])
    (wB : DotDims.WF ⟨2, ![N, H]⟩ ⟨2, ![H, D]⟩ ⟨2, ![N, D]⟩ [1] [0] [0] [1] [] [])
    (hb1 : (⟨2, ![1, H]⟩ : Shape).Broadcasts ⟨2, ![N, H]⟩) (hb2 : (⟨2, ![1, D]⟩ : Shape).Broadcasts ⟨2, ![N, D]⟩)
    (x : FVec Ideal ⟨2, ![N, K]⟩ .f32) (w1 : FVec Ideal ⟨2, ![K, H]⟩ .f32) (b1 : FVec Ideal ⟨2, ![1, H]⟩ .f32)
    (w2 : FVec Ideal ⟨2, ![H, D]⟩ .f32) (b2 : FVec Ideal ⟨2, ![1, D]⟩ .f32) : FVec Ideal ⟨2, ![N, D]⟩ .f32 :=
  reluLayer wB hb2 (reluLayer wA hb1 x w1 b1) w2 b2

theorem hiddenArr_at (wA : DotDims.WF ⟨2, ![N, K]⟩ ⟨2, ![K, H]⟩ ⟨2, ![N, H]⟩ [1] [0] [0] [1] [] [])
    (wB : DotDims.WF ⟨2, ![N, H]⟩ ⟨2, ![H, D]⟩ ⟨2, ![N, D]⟩ [1] [0] [0] [1] [] [])
    (hb1 : (⟨2, ![1, H]⟩ : Shape).Broadcasts ⟨2, ![N, H]⟩) (hb2 : (⟨2, ![1, D]⟩ : Shape).Broadcasts ⟨2, ![N, D]⟩)
    (x : FVec Ideal ⟨2, ![N, K]⟩ .f32) (w1 : FVec Ideal ⟨2, ![K, H]⟩ .f32) (b1 : FVec Ideal ⟨2, ![1, H]⟩ .f32)
    (w2 : FVec Ideal ⟨2, ![H, D]⟩ .f32) (b2 : FVec Ideal ⟨2, ![1, D]⟩ .f32) (p : Fin N) (q : Fin D) :
    hiddenArr wA wB hb1 hb2 x w1 b1 w2 b2 (ix2 p q) = hidden2 (fun i => x (ix2 p i)) w1 b1 w2 b2 q := by
  unfold hiddenArr hidden2
  rw [reluLayer_at]
  refine congrArg (fun s => max (s + b2 (ix2 (0 : Fin 1) q)) (Ideal.ofBits .f32 0x00000000#32)) ?_
  refine Finset.sum_congr rfl fun j _ => ?_
  rw [reluLayer_eq_hidden1]

/-! ## The unit-length scaling -/

/-- The column [N, 1] of reciprocal square roots of the bounded row sums of squares of an array h : [N, D], spread over
    the lanes and multiplied into h. -/
def unitArrOf (hred : (⟨2, ![N, D]⟩ : Shape).Reduces [1] ⟨1, ![N]⟩) (hφ : FKind.Formats .f32)
    (hacc : (0x00000000#32 : BitVec FTy.f32.bits) = FKind.add.neutral .f32 hφ)
    (hc : (⟨1, ![N]⟩ : Shape).ShapeCasts ⟨2, ![N, 1]⟩) (hcol : (⟨2, ![N, 1]⟩ : Shape).Broadcasts ⟨2, ![N, D]⟩)
    (h : FVec Ideal ⟨2, ![N, D]⟩ .f32) : FVec Ideal ⟨2, ![N, D]⟩ .f32 :=
  mulf h (broadcastTo ⟨2, ![N, D]⟩
    (rsqrt (maximumf (shapeCast ⟨2, ![N, 1]⟩ (multiReduction .add [1] ⟨1, ![N]⟩ (mulf h h) 0x00000000#32 hred hφ hacc) hc)
      (broadcast ⟨2, ![N, 1]⟩ (Scalar.ofBits (F := Ideal) .f32 0x179ABE15#32)))) hcol)

theorem unitArrOf_at (hred : (⟨2, ![N, D]⟩ : Shape).Reduces [1] ⟨1, ![N]⟩) (hφ : FKind.Formats .f32)
    (hacc : (0x00000000#32 : BitVec FTy.f32.bits) = FKind.add.neutral .f32 hφ)
    (hc : (⟨1, ![N]⟩ : Shape).ShapeCasts ⟨2, ![N, 1]⟩) (hcol : (⟨2, ![N, 1]⟩ : Shape).Broadcasts ⟨2, ![N, D]⟩)
    (h : FVec Ideal ⟨2, ![N, D]⟩ .f32) (p : Fin N) (q : Fin D) :
    unitArrOf hred hφ hacc hc hcol h (ix2 p q)
      = h (ix2 p q) * Ideal.rsqrt (max (∑ k : Fin D, h (ix2 p k) * h (ix2 p k)) (Ideal.ofBits .f32 0x179ABE15#32)) := by
  unfold unitArrOf
  rw [mulf_apply, Cert.Lib.Keepdims.broadcastTo_a1_ab_apply]
  refine congrArg (fun s => h (ix2 p q) * s) ?_
  show Ideal.rsqrt (max (shapeCast ⟨2, ![N, 1]⟩ (multiReduction .add [1] ⟨1, ![N]⟩ (mulf h h) 0x00000000#32 hred hφ hacc) hc (ix2 p (0 : Fin 1))) _) = _
  rw [Cert.Lib.Keepdims.shapeCast_a_a1_apply]
  refine congrArg (fun s => Ideal.rsqrt (max s (Ideal.ofBits .f32 0x179ABE15#32))) ?_
  refine (Ideal.multiReduction_add_single _ _ hred hφ hacc _).trans ?_
  show ∑ k : Fin D, mulf h h (hred.lift (ix1 p) k) = _
  refine Finset.sum_congr rfl fun k _ => ?_
  rw [Cert.Lib.Keepdims.lift_axis1, mulf_apply]

/-- The normalized features as arrays, at (p, q): `unitRow` of row p. -/
theorem unitArrOf_hiddenArr_at (wA : DotDims.WF ⟨2, ![N, K]⟩ ⟨2, ![K, H]⟩ ⟨2, ![N, H]⟩ [1] [0] [0] [1] [] [])
    (wB : DotDims.WF ⟨2, ![N, H]⟩ ⟨2, ![H, D]⟩ ⟨2, ![N, D]⟩ [1] [0] [0] [1] [] [])
    (hb1 : (⟨2, ![1, H]⟩ : Shape).Broadcasts ⟨2, ![N, H]⟩) (hb2 : (⟨2, ![1, D]⟩ : Shape).Broadcasts ⟨2, ![N, D]⟩)
    (hred : (⟨2, ![N, D]⟩ : Shape).Reduces [1] ⟨1, ![N]⟩) (hφ : FKind.Formats .f32)
    (hacc : (0x00000000#32 : BitVec FTy.f32.bits) = FKind.add.neutral .f32 hφ)
    (hc : (⟨1, ![N]⟩ : Shape).ShapeCasts ⟨2, ![N, 1]⟩) (hcol : (⟨2, ![N, 1]⟩ : Shape).Broadcasts ⟨2, ![N, D]⟩)
    (x : FVec Ideal ⟨2, ![N, K]⟩ .f32) (w1 : FVec Ideal ⟨2, ![K, H]⟩ .f32) (b1 : FVec Ideal ⟨2, ![1, H]⟩ .f32)
    (w2 : FVec Ideal ⟨2, ![H, D]⟩ .f32) (b2 : FVec Ideal ⟨2, ![1, D]⟩ .f32) (p : Fin N) (q : Fin D) :
    unitArrOf hred hφ hacc hc hcol (hiddenArr wA wB hb1 hb2 x w1 b1 w2 b2) (ix2 p q)
      = unitRow (fun i => x (ix2 p i)) w1 b1 w2 b2 q := by
  rw [unitArrOf_at]
  unfold unitRow sumsq
  simp only [hiddenArr_at]

/-! ## The last affine layer -/

/-- u · w3 + b3 as arrays at (p, j), for any array u whose entries of row p are known. -/
theorem affine_at (w : DotDims.WF ⟨2, ![N, D]⟩ ⟨2, ![D, n]⟩ ⟨2, ![N, n]⟩ [1] [0] [0] [1] [] [])
    (hb : (⟨2, ![1, n]⟩ : Shape).Broadcasts ⟨2, ![N, n]⟩)
    (u : FVec Ideal ⟨2, ![N, D]⟩ .f32) (w3 : FVec Ideal ⟨2, ![D, n]⟩ .f32) (b3 : FVec Ideal ⟨2, ![1, n]⟩ .f32)
    (p : Fin N) (j : Fin n) :
    addf (matmul (Cert.Mlp.D2 w) none u w3 (constant ⟨2, ![N, n]⟩ .f32 0x00000000#32)) (broadcastTo ⟨2, ![N, n]⟩ b3 hb) (ix2 p j)
      = (∑ q : Fin D, u (ix2 p q) * w3 (ix2 q j)) + b3 (ix2 (0 : Fin 1) j) := by
  rw [addf_apply, Cert.Mlp.matmul_zero_at, broadcastTo_1b_ab_apply]

end Cert.Head

end
-- ==== Proof.LibPoolAt.lean ====
/-
  A rank-3 array summed along one axis and scaled by a constant, read at one entry.

  The sum along the leading axis of v : [a, b, c] at (p, q) visits the source indices (k, p, q), the sum along the
  trailing axis visits (p, q, k); a re-layout of an array to its own shape changes nothing, and the product with a
  splat constant multiplies every entry by it. Stated for any extents.
-/
import Idealize.ShloMosaic.Lib.Pipeline.Value
import Idealize.ShloMosaic.Lib.ValueIdx
import Idealize.ShloMosaic.PureOps.Reduce
import Idealize.ShloMosaic.PureOps.Ideal.Laws

noncomputable section

open scoped BigOperators

namespace Cert.Head.Pool

open Idealize.ShloMosaic Idealize.ShloMosaic.ValueIdx

variable {a b c : Nat}

/-- A one-axis reduction of [a, b, c] along axis 0 visits, for the entry (p, q) and coordinate k, the source (k, p, q). -/
theorem lift_axis0 (h : (⟨3, ![a, b, c]⟩ : Shape).Reduces [0] ⟨2, ![b, c]⟩) (p : Fin b) (q : Fin c) (k : Fin a) :
    h.lift (ix2 p q) k = ix3 k p q :=
  funext fun d => Fin.ext (by match d with | ⟨0, _⟩ => rfl | ⟨1, _⟩ => rfl | ⟨2, _⟩ => rfl)

/-- A one-axis reduction of [a, b, c] along axis 2 visits, for the entry (p, q) and coordinate k, the source (p, q, k). -/
theorem lift_axis2 (h : (⟨3, ![a, b, c]⟩ : Shape).Reduces [2] ⟨2, ![a, b]⟩) (p : Fin a) (q : Fin b) (k : Fin c) :
    h.lift (ix2 p q) k = ix3 p q k :=
  funext fun d => Fin.ext (by match d with | ⟨0, _⟩ => rfl | ⟨1, _⟩ => rfl | ⟨2, _⟩ => rfl)

/-- The sum along the leading axis times a splat constant, at (p, q). -/
theorem sumLead_scaled_at (hs : (⟨3, ![a, b, c]⟩ : Shape).ShapeCasts ⟨3, ![a, b, c]⟩)
    (hred : (⟨3, ![a, b, c]⟩ : Shape).Reduces [0] ⟨2, ![b, c]⟩) (hφ : FKind.Formats .f32)
    (hacc : (0x00000000#32 : BitVec FTy.f32.bits) = FKind.add.neutral .f32 hφ)
    (v : FVec Ideal ⟨3, ![a, b, c]⟩ .f32) (κ : BitVec FTy.f32.bits) (p : Fin b) (q : Fin c) :
    mulf (multiReduction .add [0] ⟨2, ![b, c]⟩ (shapeCast ⟨3, ![a, b, c]⟩ v hs) 0x00000000#32 hred hφ hacc)
        (broadcast ⟨2, ![b, c]⟩ (Scalar.ofBits (F := Ideal) .f32 κ)) (ix2 p q)
      = (∑ k : Fin a, v (ix3 k p q)) * Ideal.ofBits .f32 κ := by
  rw [mulf_apply, broadcast_apply, shapeCast_self]
  refine congrArg (fun s => s * Ideal.ofBits .f32 κ) ?_
  refine (Ideal.multiReduction_add_single _ _ hred hφ hacc _).trans ?_
  show ∑ k : Fin a, v (hred.lift (ix2 p q) k) = _
  refine Finset.sum_congr rfl fun k _ => ?_
  rw [lift_axis0]

/-- The sum along the trailing axis times a splat constant, at (p, q). -/
theorem sumTrail_scaled_at (hs : (⟨3, ![a, b, c]⟩ : Shape).ShapeCasts ⟨3, ![a, b, c]⟩)
    (hred : (⟨3, ![a, b, c]⟩ : Shape).Reduces [2] ⟨2, ![a, b]⟩) (hφ : FKind.Formats .f32)
    (hacc : (0x00000000#32 : BitVec FTy.f32.bits) = FKind.add.neutral .f32 hφ)
    (v : FVec Ideal ⟨3, ![a, b, c]⟩ .f32) (κ : BitVec FTy.f32.bits) (p : Fin a) (q : Fin b) :
    mulf (multiReduction .add [2] ⟨2, ![a, b]⟩ (shapeCast ⟨3, ![a, b, c]⟩ v hs) 0x00000000#32 hred hφ hacc)
        (broadcast ⟨2, ![a, b]⟩ (Scalar.ofBits (F := Ideal) .f32 κ)) (ix2 p q)
      = (∑ k : Fin c, v (ix3 p q k)) * Ideal.ofBits .f32 κ := by
  rw [mulf_apply, broadcast_apply, shapeCast_self]
  refine congrArg (fun s => s * Ideal.ofBits .f32 κ) ?_
  refine (Ideal.multiReduction_add_single _ _ hred hφ hacc _).trans ?_
  show ∑ k : Fin c, v (hred.lift (ix2 p q) k) = _
  refine Finset.sum_congr rfl fun k _ => ?_
  rw [lift_axis2]

end Cert.Head.Pool

end
-- ==== Proof.KernelPay.lean ====
/-
  The fused kernel's two stored values read at an entry: row `p` of a block depends only on row `p` of the block's
  pooled features, and is the head's formula of that row.
-/
import proofs.«145543_g2000702716457357_pallasbulk_1135_15_alg».proof.Proof.Gen.KernelIdeal.Skeleton
import proofs.«145543_g2000702716457357_pallasbulk_1135_15_alg».proof.Proof.Spec
import proofs.«145543_g2000702716457357_pallasbulk_1135_15_alg».proof.Proof.HeadAt
import proofs.«145543_g2000702716457357_pallasbulk_1135_15_alg».proof.Proof.LibPoolAt

noncomputable section

open scoped BigOperators

namespace Cert.Head.KernelPay

open Idealize.ShloMosaic Idealize.ShloMosaic.ValueIdx Cert.KernelIdeal Cert.KernelIdeal.Gen Cert.Head

/-- The pooled features of row `p` of a block `v0 : [49, 32, 1024]`: the sum over the leading (spatial) axis times the constant. -/
def blockRow (v0 : Vec Ideal S49x32x1024 .f32) (p : Fin 32) : Fin 1024 → Ideal .f32 := fun c =>
  (∑ s : Fin 49, v0 (ix3 s p c)) * Ideal.ofBits .f32 0x3CA72F05#32

/-- The block's pooled features as an array [32, 1024]: the block summed along its leading axis, times the splat constant. -/
def pooled (v0 : Vec Ideal S49x32x1024 .f32) : FVec Ideal S32x1024 .f32 :=
  mulf (multiReduction .add [0] S32x1024 (shapeCast S49x32x1024 v0 shapeCasts_S49x32x1024_S49x32x1024) 0x00000000#32
      reduces_S49x32x1024_S32x1024 (.inl rfl) rfl)
    (broadcast S32x1024 (Scalar.ofBits (F := Ideal) .f32 0x3CA72F05#32))

theorem pooled_at (v0 : Vec Ideal S49x32x1024 .f32) (p : Fin 32) (c : Fin 1024) :
    pooled v0 (ix2 p c) = blockRow v0 p c :=
  Pool.sumLead_scaled_at _ _ _ _ v0 _ p c

/-- The normalized-feature store at (p, q). -/
theorem pay2_at (v0 : Vec Ideal S49x32x1024 .f32) (v5 : Vec Ideal S1024x512 .f32) (v7 : Vec Ideal S1x512 .f32)
    (v12 : Vec Ideal S512x128 .f32) (v14 : Vec Ideal S1x128 .f32) (p : Fin 32) (q : Fin 128) :
    k0_pay2 (F := Ideal) v0 v5 v7 v12 v14 (ix2 p q) = unitRow (blockRow v0 p) v5 v7 v12 v14 q := by
  -- the stored array is the unit-length scaling of the two layers of the pooled block
  have key : k0_pay2 (F := Ideal) v0 v5 v7 v12 v14
      = unitArrOf reduces_S32x128_S32 (.inl rfl) rfl shapeCasts_S32_S32x1 broadcasts_S32x1_S32x128
          (hiddenArr dot_S32x1024_S1024x512_S32x512_1_0_0_1_n_n_wf dot_S32x512_S512x128_S32x128_1_0_0_1_n_n_wf
            broadcasts_S1x512_S32x512 broadcasts_S1x128_S32x128 (pooled v0) v5 v7 v12 v14) := rfl
  refine (congrFun key (ix2 p q)).trans ((unitArrOf_hiddenArr_at _ _ _ _ _ _ _ _ _ (pooled v0) v5 v7 v12 v14 p q).trans ?_)
  refine congrArg (fun row => unitRow row v5 v7 v12 v14 q) ?_
  funext c
  exact pooled_at v0 p c

/-- The logit store at (p, j). -/
theorem pay1_at (v0 : Vec Ideal S49x32x1024 .f32) (v5 : Vec Ideal S1024x512 .f32) (v7 : Vec Ideal S1x512 .f32)
    (v12 : Vec Ideal S512x128 .f32) (v14 : Vec Ideal S1x128 .f32) (v27 : Vec Ideal S128x3 .f32) (v30 : Vec Ideal S1x3 .f32)
    (p : Fin 32) (j : Fin 3) :
    k0_pay1 (F := Ideal) (k0_pay3 v0 v5 v7 v12 v14 v27) (k0_pay4 v30) (ix2 p j) = logit (blockRow v0 p) v5 v7 v12 v14 v27 v30 j := by
  refine (affine_at dot_S32x128_S128x3_S32x3_1_0_0_1_n_n_wf broadcasts_S1x3_S32x3 (k0_pay2 v0 v5 v7 v12 v14) v27 v30 p j).trans ?_
  unfold logit
  refine congrArg (fun s => s + v30 (ix2 (0 : Fin 1) j)) ?_
  refine Finset.sum_congr rfl fun q _ => ?_
  rw [pay2_at]

end Cert.Head.KernelPay

end
-- ==== Proof.KernelRun.lean ====
/-
  The fused kernel's run as whole-array values.

  At point t the kernel writes rows 32·t … 32·t + 31 of both results; row p of what it writes is the head's formula of the
  pooled features of row p of its input block, which are the pooled features of batch entry 32·t + p.  So each point
  writes its block of ONE function of the arguments — the normalized features and the logits of every batch entry — and,
  row r lying in the block of point r / 32, the eight blocks cover both arrays: after the run the arrays hold those functions.
-/
import proofs.«145543_g2000702716457357_pallasbulk_1135_15_alg».proof.Proof.Gen.KernelIdeal.Value
import proofs.«145543_g2000702716457357_pallasbulk_1135_15_alg».proof.Proof.KernelBlocks
import proofs.«145543_g2000702716457357_pallasbulk_1135_15_alg».proof.Proof.KernelPay
import proofs.«145543_g2000702716457357_pallasbulk_1135_15_alg».proof.Proof.Spec

noncomputable section

open scoped BigOperators
open Idealize.ShloMosaic Idealize.ShloMosaic.TcCoe Idealize.SL.Sem Idealize.ShloMosaic.ValueIdx
open Idealize.ShloMosaic.Pipeline (Dat)

namespace Cert.Head.KernelRun

open Cert.KernelIdeal Cert.KernelIdeal.Gen Cert.KernelIdeal.Value Cert.Head Cert.Head.KernelPay

variable (m : (ℓ : Loc nD τ sig) → Buf (Elt Ideal) ℓ) (ρ : Dev nD → PrngReg)

/-! ## The pooled features of a block's row -/

/-- If row `p` of a block `v0 : [49,32,1024]` is, position by position, batch entry `r` of `x` with the spatial axis split as
    (s / 7, s % 7), the pooled features of that row are the pooled features of entry `r`: the same 49 terms, the same constant. -/
theorem blockRow_eq_pooledRow (v0 : Vec Ideal S49x32x1024 .f32) (x : FVec Ideal ⟨4, ![256, 1024, 7, 7]⟩ .f32) (p : Fin 32) (r : Fin 256)
    (h : ∀ (s : Fin 49) (ch : Fin 1024), v0 (ix3 s p ch) = x (ix4 r ch ⟨s.val / 7, by have := s.isLt; omega⟩ ⟨s.val % 7, by omega⟩)) :
    blockRow v0 p = pooledRow x r := by
  funext ch
  show (∑ s : Fin 49, v0 (ix3 s p ch)) * _ = (∑ s : Fin 49, x (ix4 r ch ⟨s.val / 7, by have := s.isLt; omega⟩ ⟨s.val % 7, by omega⟩)) * _
  rw [Finset.sum_congr rfl fun s _ => h s ch]

/-- The pooled features of row `p` of the block at point `t` are those of batch entry 32·t + p. -/
theorem blockRow_iblk (c : Dev nD) (t : Fin cfg0.N) (p : Fin 32) :
    blockRow (iblk m c 0 t) p = pooledRow (m ((c : Thread nD τ).loc main_arg0)) (rowOf t p) :=
  blockRow_eq_pooledRow (iblk m c 0 t) (m ((c : Thread nD τ).loc main_arg0)) p (rowOf t p) fun s ch => iblk0_apply m c t s p ch

/-! ## The two stored values at a block index -/

/-- The normalized-feature store at any index `j = (p, q)` of the [32,128] block. -/
theorem pay2_idx (v0 : Vec Ideal S49x32x1024 .f32) (v5 : Vec Ideal S1024x512 .f32) (v7 : Vec Ideal S1x512 .f32)
    (v12 : Vec Ideal S512x128 .f32) (v14 : Vec Ideal S1x128 .f32) (j : S32x128.Idx) :
    k0_pay2 (F := Ideal) v0 v5 v7 v12 v14 j = unitRow (blockRow v0 (j 0)) v5 v7 v12 v14 (j 1) := by
  exact (congrArg (k0_pay2 (F := Ideal) v0 v5 v7 v12 v14) (eq_ix2 j)).trans (pay2_at v0 v5 v7 v12 v14 (j 0) (j 1))

/-- The logit store at any index `j = (p, k)` of the [32,3] block. -/
theorem pay1_idx (v0 : Vec Ideal S49x32x1024 .f32) (v5 : Vec Ideal S1024x512 .f32) (v7 : Vec Ideal S1x512 .f32)
    (v12 : Vec Ideal S512x128 .f32) (v14 : Vec Ideal S1x128 .f32) (v27 : Vec Ideal S128x3 .f32) (v30 : Vec Ideal S1x3 .f32) (j : S32x3.Idx) :
    k0_pay1 (F := Ideal) (k0_pay3 v0 v5 v7 v12 v14 v27) (k0_pay4 v30) j = logit (blockRow v0 (j 0)) v5 v7 v12 v14 v27 v30 (j 1) := by
  exact (congrArg (k0_pay1 (F := Ideal) (k0_pay3 v0 v5 v7 v12 v14 v27) (k0_pay4 v30)) (eq_ix2 j)).trans (pay1_at v0 v5 v7 v12 v14 v27 v30 (j 0) (j 1))

/-! ## What a point writes back -/

/-- Point `t` writes block `t` of the normalized features of the whole batch. -/
theorem flushed7_eq (c : Dev nD) (t : Fin cfg0.N) :
    (dats m 0 c).flushed 7 t = ((cfg0.win 7).blk t).view.read (Elt Ideal) (unitArr (m ((c : Thread nD τ).loc main_arg0)) (m ((c : Thread nD τ).loc main_arg1)) (m ((c : Thread nD τ).loc main_arg2)) (m ((c : Thread nD τ).loc main_arg3)) (m ((c : Thread nD τ).loc main_arg4))) := by
  rw [Value.flushed7]
  unfold out0_7
  rw [View.canon_unit_zero hz2]
  simp only [View.ld_unit_zero (S := S49x32x1024) hz3, View.ld_unit_zero (S := S1024x512) hz2, View.ld_unit_zero (S := S1x512) hz2,
    View.ld_unit_zero (S := S512x128) hz2, View.ld_unit_zero (S := S1x128) hz2]
  obtain ⟨-, -, -, -, -, -, -, -, -, -, -, -, -, -, -, e0, e1, -⟩ := idx_facts t
  funext j
  rw [View.read_apply]
  show k0_pay2 (F := Ideal) (iblk m c 0 t) (iblk m c 1 t) (iblk m c 2 t) (iblk m c 3 t) (iblk m c 4 t) j = _
  refine (pay2_idx (iblk m c 0 t) (iblk m c 1 t) (iblk m c 2 t) (iblk m c 3 t) (iblk m c 4 t) j).trans ?_
  rw [blockRow_iblk m c t (j 0), iblk1_eq m c t, iblk2_eq m c t, iblk3_eq m c t, iblk4_eq m c t]
  have h0 : ((cfg0.win 7).blk t).view.emb j 0 = rowOf t (j 0) :=
    Fin.ext (by show win0_7.index t (0 : Fin 2) * 32 + 1 * (j 0).val = 32 * t.val + (j 0).val; omega)
  have h1 : ((cfg0.win 7).blk t).view.emb j 1 = j 1 :=
    Fin.ext (by show win0_7.index t (1 : Fin 2) * 128 + 1 * (j 1).val = (j 1).val; omega)
  show _ = unitRow (pooledRow (m ((c : Thread nD τ).loc main_arg0)) (((cfg0.win 7).blk t).view.emb j 0)) (m ((c : Thread nD τ).loc main_arg1)) (m ((c : Thread nD τ).loc main_arg2)) (m ((c : Thread nD τ).loc main_arg3)) (m ((c : Thread nD τ).loc main_arg4)) (((cfg0.win 7).blk t).view.emb j 1)
  rw [h0, h1]

/-- Point `t` writes block `t` of the logits of the whole batch. -/
theorem flushed8_eq (c : Dev nD) (t : Fin cfg0.N) :
    (dats m 0 c).flushed 8 t = ((cfg0.win 8).blk t).view.read (Elt Ideal) (logitArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Value.flushed8]
  unfold out0_8
  rw [View.canon_unit_zero hz2]
  simp only [View.ld_unit_zero (S := S49x32x1024) hz3, View.ld_unit_zero (S := S1024x512) hz2, View.ld_unit_zero (S := S1x512) hz2,
    View.ld_unit_zero (S := S512x128) hz2, View.ld_unit_zero (S := S1x128) hz2, View.ld_unit_zero (S := S128x3) hz2, View.ld_unit_zero (S := S1x3) hz2]
  obtain ⟨-, -, -, -, -, -, -, -, -, -, -, -, -, -, -, -, -, e0, e1⟩ := idx_facts t
  funext j
  rw [View.read_apply]
  show k0_pay1 (F := Ideal) (k0_pay3 (iblk m c 0 t) (iblk m c 1 t) (iblk m c 2 t) (iblk m c 3 t) (iblk m c 4 t) (iblk m c 5 t)) (k0_pay4 (iblk m c 6 t)) j = _
  refine (pay1_idx (iblk m c 0 t) (iblk m c 1 t) (iblk m c 2 t) (iblk m c 3 t) (iblk m c 4 t) (iblk m c 5 t) (iblk m c 6 t) j).trans ?_
  rw [blockRow_iblk m c t (j 0), iblk1_eq m c t, iblk2_eq m c t, iblk3_eq m c t, iblk4_eq m c t, iblk5_eq m c t, iblk6_eq m c t]
  have h0 : ((cfg0.win 8).blk t).view.emb j 0 = rowOf t (j 0) :=
    Fin.ext (by show win0_8.index t (0 : Fin 2) * 32 + 1 * (j 0).val = 32 * t.val + (j 0).val; omega)
  have h1 : ((cfg0.win 8).blk t).view.emb j 1 = j 1 :=
    Fin.ext (by show win0_8.index t (1 : Fin 2) * 3 + 1 * (j 1).val = (j 1).val; omega)
  show _ = logit (pooledRow (m ((c : Thread nD τ).loc main_arg0)) (((cfg0.win 8).blk t).view.emb j 0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 8).blk t).view.emb j 1)
  rw [h0, h1]

/-! ## The blocks cover the arrays -/

/-- An index of the first result is in point `t`'s block iff each coordinate is in the block's range on its axis. -/
theorem mem_blk7 (t : Fin cfg0.N) (i : S256x128.Idx) :
    i ∈ ((cfg0.win 7).blk t).view.set ↔ ∀ a : Fin 2, win0_7.index t a * S32x128.size a ≤ (i a).val ∧ (i a).val < win0_7.index t a * S32x128.size a + S32x128.size a := by
  show i ∈ ((View.whole main_v2_0).slice (win0_7.rect t)).set ↔ _
  rw [View.set_slice_whole, Rect.mem_set_unit]
  exact Iff.rfl

/-- An index of the second result is in point `t`'s block iff each coordinate is in the block's range on its axis. -/
theorem mem_blk8 (t : Fin cfg0.N) (i : S256x3.Idx) :
    i ∈ ((cfg0.win 8).blk t).view.set ↔ ∀ a : Fin 2, win0_8.index t a * S32x3.size a ≤ (i a).val ∧ (i a).val < win0_8.index t a * S32x3.size a + S32x3.size a := by
  show i ∈ ((View.whole main_v2_1).slice (win0_8.rect t)).set ↔ _
  rw [View.set_slice_whole, Rect.mem_set_unit]
  exact Iff.rfl

/-- Row `r` of the first result lies in the block of point `r / 32`. -/
theorem cover7 (i : S256x128.Idx) : ∃ t : Fin cfg0.N, (cfg0.win 7).flush t = true ∧ i ∈ ((cfg0.win 7).blk t).view.set := by
  have hi0 : (i 0).val < 256 := (i 0).isLt
  have hi1 : (i 1).val < 128 := (i 1).isLt
  obtain ⟨t, ht⟩ : ∃ t : Fin cfg0.N, t.val = (i 0).val / 32 :=
    ⟨⟨(i 0).val / 32, lt_of_lt_of_eq (by omega : (i 0).val / 32 < 8) N_0.symm⟩, rfl⟩
  obtain ⟨-, -, -, -, -, -, -, -, -, -, -, -, -, -, -, e0, e1, -⟩ := idx_facts t
  refine ⟨t, flush0_7 t, ?_⟩
  rw [mem_blk7]
  intro a
  match a with
  | ⟨0, _⟩ => show win0_7.index t (0 : Fin 2) * 32 ≤ (i 0).val ∧ (i 0).val < win0_7.index t (0 : Fin 2) * 32 + 32; omega
  | ⟨1, _⟩ => show win0_7.index t (1 : Fin 2) * 128 ≤ (i 1).val ∧ (i 1).val < win0_7.index t (1 : Fin 2) * 128 + 128; omega

/-- Row `r` of the second result lies in the block of point `r / 32`. -/
theorem cover8 (i : S256x3.Idx) : ∃ t : Fin cfg0.N, (cfg0.win 8).flush t = true ∧ i ∈ ((cfg0.win 8).blk t).view.set := by
  have hi0 : (i 0).val < 256 := (i 0).isLt
  have hi1 : (i 1).val < 3 := (i 1).isLt
  obtain ⟨t, ht⟩ : ∃ t : Fin cfg0.N, t.val = (i 0).val / 32 :=
    ⟨⟨(i 0).val / 32, lt_of_lt_of_eq (by omega : (i 0).val / 32 < 8) N_0.symm⟩, rfl⟩
  obtain ⟨-, -, -, -, -, -, -, -, -, -, -, -, -, -, -, -, -, e0, e1⟩ := idx_facts t
  refine ⟨t, flush0_8 t, ?_⟩
  rw [mem_blk8]
  intro a
  match a with
  | ⟨0, _⟩ => show win0_8.index t (0 : Fin 2) * 32 ≤ (i 0).val ∧ (i 0).val < win0_8.index t (0 : Fin 2) * 32 + 32; omega
  | ⟨1, _⟩ => show win0_8.index t (1 : Fin 2) * 3 ≤ (i 1).val ∧ (i 1).val < win0_8.index t (1 : Fin 2) * 3 + 3; omega

/-! ## The arrays after the run -/

/-- The first result after the run: the normalized features of every batch entry. -/
theorem final7 (c : Dev nD) : (dats m 0 c).arrAt 7 cfg0.N = unitArr (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 7 (unitArr (m ((c : Thread nD τ).loc main_arg0)) (m ((c : Thread nD τ).loc main_arg1)) (m ((c : Thread nD τ).loc main_arg2)) (m ((c : Thread nD τ).loc main_arg3)) (m ((c : Thread nD τ).loc main_arg4))) (fun t _ => flushed7_eq m c t) cover7

/-- The second result after the run: the logits of every batch entry. -/
theorem final8 (c : Dev nD) : (dats m 0 c).arrAt 8 cfg0.N = logitArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 8 (logitArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushed8_eq m c t) cover8

/-- THE RUN: every execution of the fused kernel terminates with the first result at the normalized features and the second at
    the logits of every batch entry, as functions of the seven arguments, which are unchanged. -/
theorem kernel_run : θ_run (defs (F := Ideal)) (onTc (τ := τ) (main (F := Ideal))) ⟨m, fun _ => 0, ρ⟩ fun r => ∀ c : Dev nD,
      r.2.mem ((c : Thread nD τ).loc main_v2_0) = unitArr (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v2_1) = logitArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2.1.trans (final8 m c), (h c).2.2⟩)
    (Value.run_blocks m ρ)

end Cert.Head.KernelRun

end
-- ==== Proof.RefRun.lean ====
/-
  The reference program's run with every unscoped buffer named at the end.

  The program is a chain of host stretches and two kernel regions.  The buffer contents at each boundary are a fold
  from the launch memory (`W0` … `W8` of the generated frame module); the run below ends with every buffer that
  outlives the regions holding the last fold `W8`, from which both results and the arguments are read.
-/
import proofs.«145543_g2000702716457357_pallasbulk_1135_15_alg».proof.Proof.Gen.ReferenceIdeal.Frame

set_option maxRecDepth 16384

noncomputable section

namespace Cert.Head.RefRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the reference terminates without a fault, and at the end every unscoped buffer
    `b` of every core holds `W8 m ρ c b`: the segments of the program run one after the other over the thread state
    "every unscoped buffer at the boundary's contents", and the last state is read against the final memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

end Cert.Head.RefRun

end
-- ==== Proof.RefPay.lean ====
/-
  The reference's stored values read at an entry: the pooling kernel's block, and the head kernel's two pieces.
-/
import proofs.«145543_g2000702716457357_pallasbulk_1135_15_alg».proof.Proof.Gen.ReferenceIdeal.Skeleton
import proofs.«145543_g2000702716457357_pallasbulk_1135_15_alg».proof.Proof.Spec
import proofs.«145543_g2000702716457357_pallasbulk_1135_15_alg».proof.Proof.HeadAt
import proofs.«145543_g2000702716457357_pallasbulk_1135_15_alg».proof.Proof.LibPoolAt

noncomputable section

open scoped BigOperators

namespace Cert.Head.RefPay

open Idealize.ShloMosaic Idealize.ShloMosaic.ValueIdx Cert.ReferenceIdeal Cert.ReferenceIdeal.Gen Cert.Head

/-- The pooling kernel's store at (p, c): the sum over the trailing (spatial) axis of the block times the constant. -/
theorem gap_at (x0 : Vec Ideal S16x256x49 .f32) (p : Fin 16) (c : Fin 256) :
    k0_pay1 (F := Ideal) x0 (ix2 p c) = (∑ s : Fin 49, x0 (ix3 p c s)) * Ideal.ofBits .f32 0x3CA72F05#32 :=
  Pool.sumTrail_scaled_at shapeCasts_S16x256x49_S16x256x49 reduces_S16x256x49_S16x256 (.inl rfl) rfl x0 _ p c

/-- The head kernel's normalized-feature piece at (b, q). -/
theorem pay1_at (v0 : Vec Ideal S256x1024 .f32) (v2 : Vec Ideal S1024x512 .f32) (v4 : Vec Ideal S1x512 .f32)
    (v9 : Vec Ideal S512x128 .f32) (v11 : Vec Ideal S1x128 .f32) (b : Fin 256) (q : Fin 128) :
    k1_pay1 (F := Ideal) v0 v2 v4 v9 v11 (ix2 b q) = unitRow (fun i => v0 (ix2 b i)) v2 v4 v9 v11 q := by
  -- the stored array is the unit-length scaling of the two layers of the features, re-laid to their own shape first
  have key : k1_pay1 (F := Ideal) v0 v2 v4 v9 v11
      = unitArrOf reduces_S256x128_S256 (.inl rfl) rfl shapeCasts_S256_S256x1 broadcasts_S256x1_S256x128
          (hiddenArr dot_S256x1024_S1024x512_S256x512_1_0_0_1_n_n_wf dot_S256x512_S512x128_S256x128_1_0_0_1_n_n_wf
            broadcasts_S1x512_S256x512 broadcasts_S1x128_S256x128
            (shapeCast S256x1024 v0 shapeCasts_S256x1024_S256x1024) v2 v4 v9 v11) := rfl
  rw [shapeCast_self] at key
  exact (congrFun key (ix2 b q)).trans (unitArrOf_hiddenArr_at _ _ _ _ _ _ _ _ _ v0 v2 v4 v9 v11 b q)

/-- The head kernel's logit piece at (b, j), over the padded last layer [128, 128] and [1, 128]. -/
theorem pay2_at (v0 : Vec Ideal S256x1024 .f32) (v2 : Vec Ideal S1024x512 .f32) (v4 : Vec Ideal S1x512 .f32)
    (v9 : Vec Ideal S512x128 .f32) (v11 : Vec Ideal S1x128 .f32) (v24 : Vec Ideal S128x128 .f32) (v27 : Vec Ideal S1x128 .f32)
    (b : Fin 256) (j : Fin 128) :
    k1_pay2 (F := Ideal) v0 v2 v4 v9 v11 v24 v27 (ix2 b j) = logit (fun i => v0 (ix2 b i)) v2 v4 v9 v11 v24 v27 j := by
  have key : k1_pay2 (F := Ideal) v0 v2 v4 v9 v11 v24 v27
      = addf (matmul (Cert.Mlp.D2 dot_S256x128_S128x128_S256x128_1_0_0_1_n_n_wf) none (k1_pay1 v0 v2 v4 v9 v11)
            (shapeCast S128x128 v24 shapeCasts_S128x128_S128x128) (constant S256x128 .f32 0x00000000#32))
          (broadcastTo S256x128 (shapeCast S1x128 v27 shapeCasts_S1x128_S1x128) broadcasts_S1x128_S256x128) := rfl
  rw [key, shapeCast_self, shapeCast_self]
  refine (affine_at dot_S256x128_S128x128_S256x128_1_0_0_1_n_n_wf broadcasts_S1x128_S256x128 (k1_pay1 v0 v2 v4 v9 v11) v24 v27 b j).trans ?_
  unfold logit
  refine congrArg (fun s => s + v27 (ix2 (0 : Fin 1) j)) ?_
  refine Finset.sum_congr rfl fun q _ => ?_
  rw [pay1_at]

end Cert.Head.RefPay

end
-- ==== Proof.RefPool.lean ====
import proofs.«145543_g2000702716457357_pallasbulk_1135_15_alg».proof.Proof.Gen.ReferenceIdeal.Frame
import proofs.«145543_g2000702716457357_pallasbulk_1135_15_alg».proof.Proof.RefPay
import proofs.«145543_g2000702716457357_pallasbulk_1135_15_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open scoped BigOperators

namespace Cert.Head.RefPool

open Cert.ReferenceIdeal Cert.ReferenceIdeal.Gen Cert.Head
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The pooled features of the whole batch: entry (b, ch) is the spatial sum of `x[b, ch, ·, ·]` times the constant. -/
def featArr (x : FVec Ideal ⟨4, ![256, 1024, 7, 7]⟩ .f32) : FVec Ideal ⟨2, ![256, 1024]⟩ .f32 :=
  fun i => pooledRow x (i 0) (i 1)

theorem hz2 : (![0, 0] : Fin 2 → Nat) = fun _ => 0 := funext fun a => by fin_cases a <;> rfl
theorem hz3 : (![0, 0, 0] : Fin 3 → Nat) = fun _ => 0 := funext fun a => by fin_cases a <;> rfl

/-- The pooling grid is 16 × 4 × 1: point `t` works on batch tile `t / 4` and channel chunk `t % 4`, for the input
    window and for the output window alike. -/
theorem idx0 : ∀ t : Fin cfg0.N, win0_0.index t (0 : Fin 3) = t.val / 4 ∧ win0_0.index t (1 : Fin 3) = t.val % 4
    ∧ win0_0.index t (2 : Fin 3) = 0 ∧ win0_1.index t (0 : Fin 2) = t.val / 4 ∧ win0_1.index t (1 : Fin 2) = t.val % 4 :=
  (by decide +kernel : ∀ t : Fin grid0.N, _)

/-- The array the pooling kernel reads is the input with its two spatial axes merged. -/
theorem V1_main_v0 (c : Dev nD) : (V1 m ρ c main_v0 : S256x1024x49.Idx → Elt Ideal .f32)
    = shapeCast S256x1024x49 (m ((c : Thread nD τ).loc main_arg0) : S256x1024x7x7.Idx → Elt Ideal .f32) shapeCasts_S256x1024x7x7_S256x1024x49 := by
  dsimp only [V1, W1, hostOps0]
  after_results
  rfl

/-- Position `s` of the merged axis is spatial position (s / 7, s % 7). -/
theorem merged_at (x : S256x1024x7x7.Idx → Elt Ideal .f32) (b : Fin 256) (ch : Fin 1024) (s : Fin 49) :
    shapeCast S256x1024x49 x shapeCasts_S256x1024x7x7_S256x1024x49 (ix3 b ch s)
      = x (ix4 b ch ⟨s.val / 7, by have := s.isLt; omega⟩ ⟨s.val % 7, by omega⟩) := by
  refine shapeCast_apply x _ _ _ ?_
  rw [Shape.rowMajor_val_four, Shape.rowMajor_val_three]
  show ((b.val * 1024 + ch.val) * 7 + s.val / 7) * 7 + s.val % 7 = (b.val * 1024 + ch.val) * 49 + s.val
  omega

/-- The input block of point `t` at (p, ch, s) is the merged input at (16·(t/4) + p, 256·(t%4) + ch, s). -/
theorem iblk0_at (c : Dev nD) (t : Fin cfg0.N) (y : S16x256x49.Idx) (k : S256x1024x49.Idx)
    (h0 : (k 0).val = 16 * (t.val / 4) + (y 0).val) (h1 : (k 1).val = 256 * (t.val % 4) + (y 1).val) (h2 : (k 2).val = (y 2).val) :
    (iblk0 (V1 m ρ) c 0 t : Vec Ideal S16x256x49 .f32) y = (V1 m ρ c main_v0 : S256x1024x49.Idx → Elt Ideal .f32) k := by
  obtain ⟨e0, e1, e2, -, -⟩ := idx0 t
  unfold iblk0
  rw [View.read_apply]
  show V1 m ρ c main_v0 _ = V1 m ρ c main_v0 _
  congr 1
  funext a
  apply Fin.ext
  match a with
  | ⟨0, _⟩ => show win0_0.index t 0 * 16 + 1 * (y 0).val = (k 0).val; rw [e0, h0]; omega
  | ⟨1, _⟩ => show win0_0.index t 1 * 256 + 1 * (y 1).val = (k 1).val; rw [e1, h1]; omega
  | ⟨2, _⟩ => show win0_0.index t 2 * 49 + 1 * (y 2).val = (k 2).val; rw [e2, h2]; omega

/-- What point `t` of the pooling grid writes back is block `t` of the pooled features of the whole batch. -/
theorem flushed0_eq (c : Dev nD) (t : Fin cfg0.N) :
    (dat0 (V1 m ρ) c).flushed 1 t
      = ((cfg0.win 1).blk t).view.read (Elt Ideal) (featArr (m ((c : Thread nD τ).loc main_arg0))) := by
  show (cfg0.win 1).cut (grid0.coords t) ((dat0 (V1 m ρ) c).after 1 t) = _
  rw [after0_1]
  unfold out0_1
  rw [View.canon_unit_zero hz2]
  simp only [View.ld_unit_zero (S := S16x256x49) hz3]
  obtain ⟨-, -, -, e3, e4⟩ := idx0 t
  have ht : t.val < 64 := lt_of_lt_of_eq t.isLt N_0
  funext j
  obtain ⟨p, ch, rfl⟩ : ∃ (p : Fin 16) (ch : Fin 256), j = ix2 p ch := ⟨j 0, j 1, eq_ix2 j⟩
  have hp : p.val < 16 := p.isLt
  have hch : ch.val < 256 := ch.isLt
  let b' : Fin 256 := ⟨16 * (t.val / 4) + p.val, by omega⟩
  let ch' : Fin 1024 := ⟨256 * (t.val % 4) + ch.val, by omega⟩
  have hemb : ((cfg0.win 1).blk t).view.emb (ix2 p ch) = (ix2 b' ch' : S256x1024.Idx) := by
    funext a
    apply Fin.ext
    match a with
    | ⟨0, _⟩ => show win0_1.index t 0 * 16 + 1 * p.val = 16 * (t.val / 4) + p.val; rw [e3]; omega
    | ⟨1, _⟩ => show win0_1.index t 1 * 256 + 1 * ch.val = 256 * (t.val % 4) + ch.val; rw [e4]; omega
  show k0_pay1 (iblk0 (V1 m ρ) c 0 t) (ix2 p ch) = featArr (m ((c : Thread nD τ).loc main_arg0)) (((cfg0.win 1).blk t).view.emb (ix2 p ch))
  refine Eq.trans ?_ (congrArg (featArr (m ((c : Thread nD τ).loc main_arg0))) hemb.symm)
  rw [RefPay.gap_at]
  show _ = pooledRow (m ((c : Thread nD τ).loc main_arg0)) b' ch'
  unfold pooledRow
  refine congrArg (· * Ideal.ofBits .f32 0x3CA72F05#32) (Finset.sum_congr rfl fun s _ => ?_)
  rw [iblk0_at m ρ c t (ix3 p ch s) (ix3 b' ch' s) rfl rfl rfl, V1_main_v0, merged_at]

/-- An index of the feature array is in point `t`'s block iff each coordinate is in the block's range on its axis. -/
theorem mem_blk0 (t : Fin cfg0.N) (i : S256x1024.Idx) :
    i ∈ ((cfg0.win 1).blk t).view.set ↔ ∀ a : Fin 2, win0_1.index t a * S16x256.size a ≤ (i a).val ∧ (i a).val < win0_1.index t a * S16x256.size a + S16x256.size a := by
  show i ∈ ((View.whole main_v1).slice (win0_1.rect t)).set ↔ _
  rw [View.set_slice_whole, Rect.mem_set_unit]
  exact Iff.rfl

/-- THE FEATURE ARRAY after the pooling region: entry (b, ch) is written by the point of batch tile b / 16 and channel
    chunk ch / 256, and every point writes the pooled features of its block. -/
theorem pool_final (c : Dev nD) :
    (dat0 (V1 m ρ) c).arrAt 1 cfg0.N = featArr (m ((c : Thread nD τ).loc main_arg0)) :=
  (dat0 (V1 m ρ) c).arrAt_eq_of_cover 1 (featArr (m ((c : Thread nD τ).loc main_arg0))) (fun t _ => flushed0_eq m ρ c t) fun i => by
    have hi0 : (i 0).val < 256 := (i 0).isLt
    have hi1 : (i 1).val < 1024 := (i 1).isLt
    have hN : cfg0.N = 64 := N_0
    let t : Fin cfg0.N := ⟨(i 0).val / 16 * 4 + (i 1).val / 256, by rw [hN]; omega⟩
    obtain ⟨-, -, -, e3, e4⟩ := idx0 t
    have tv : t.val = (i 0).val / 16 * 4 + (i 1).val / 256 := rfl
    refine ⟨t, flush0_1 t, ?_⟩
    rw [mem_blk0]
    intro a
    match a with
    | ⟨0, _⟩ => show win0_1.index t (0 : Fin 2) * 16 ≤ (i 0).val ∧ (i 0).val < win0_1.index t (0 : Fin 2) * 16 + 16; rw [e3, tv]; omega
    | ⟨1, _⟩ => show win0_1.index t (1 : Fin 2) * 256 ≤ (i 1).val ∧ (i 1).val < win0_1.index t (1 : Fin 2) * 256 + 256; rw [e4, tv]; omega

end Cert.Head.RefPool

end
-- ==== Proof.RefHead.lean ====
import proofs.«145543_g2000702716457357_pallasbulk_1135_15_alg».proof.Proof.Gen.ReferenceIdeal.Frame
import proofs.«145543_g2000702716457357_pallasbulk_1135_15_alg».proof.Proof.RefPay
import proofs.«145543_g2000702716457357_pallasbulk_1135_15_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import proofs.«145543_g2000702716457357_pallasbulk_1135_15_alg».proof.Proof.RefPool
import Idealize.ShloMosaic.Lib.KernelVsHost
set_option maxRecDepth 16384

noncomputable section

open scoped BigOperators

namespace Cert.Head.RefHead

open Cert.ReferenceIdeal Cert.ReferenceIdeal.Gen Cert.Head
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

open Cert.Head.RefPool

/-- The head kernel's grid is one point: every window's block is its whole array. -/
theorem idx1 : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-- The head kernel's one point stages all of window 0's array. -/
theorem iblk1_0 (c : Dev nD) (t : Fin cfg1.N) :
    (iblk1 (V6 m ρ) c 0 t : Vec Ideal S256x1024 .f32) = (V6 m ρ c main_v1 : S256x1024.Idx → Elt Ideal .f32) := by
  have e := idx1 t
  funext y
  unfold iblk1
  rw [View.read_apply]
  show V6 m ρ c main_v1 _ = V6 m ρ c main_v1 y
  congr 1
  funext a
  apply Fin.ext
  match a with
  | ⟨0, _⟩ => show win1_0.index t 0 * 256 + 1 * (y 0).val = (y 0).val; rw [e.1]; omega
  | ⟨1, _⟩ => show win1_0.index t 1 * 1024 + 1 * (y 1).val = (y 1).val; rw [e.2.1]; omega

/-- The head kernel's one point stages all of window 1's array. -/
theorem iblk1_1 (c : Dev nD) (t : Fin cfg1.N) :
    (iblk1 (V6 m ρ) c 1 t : Vec Ideal S1024x512 .f32) = (V6 m ρ c main_arg1 : S1024x512.Idx → Elt Ideal .f32) := by
  have e := idx1 t
  funext y
  unfold iblk1
  rw [View.read_apply]
  show V6 m ρ c main_arg1 _ = V6 m ρ c main_arg1 y
  congr 1
  funext a
  apply Fin.ext
  match a with
  | ⟨0, _⟩ => show win1_1.index t 0 * 1024 + 1 * (y 0).val = (y 0).val; rw [e.2.2.1]; omega
  | ⟨1, _⟩ => show win1_1.index t 1 * 512 + 1 * (y 1).val = (y 1).val; rw [e.2.2.2.1]; omega

/-- The head kernel's one point stages all of window 2's array. -/
theorem iblk1_2 (c : Dev nD) (t : Fin cfg1.N) :
    (iblk1 (V6 m ρ) c 2 t : Vec Ideal S1x512 .f32) = (V6 m ρ c main_arg2 : S1x512.Idx → Elt Ideal .f32) := by
  have e := idx1 t
  funext y
  unfold iblk1
  rw [View.read_apply]
  show V6 m ρ c main_arg2 _ = V6 m ρ c main_arg2 y
  congr 1
  funext a
  apply Fin.ext
  match a with
  | ⟨0, _⟩ => show win1_2.index t 0 * 1 + 1 * (y 0).val = (y 0).val; rw [e.2.2.2.2.1]; omega
  | ⟨1, _⟩ => show win1_2.index t 1 * 512 + 1 * (y 1).val = (y 1).val; rw [e.2.2.2.2.2.1]; omega

/-- The head kernel's one point stages all of window 3's array. -/
theorem iblk1_3 (c : Dev nD) (t : Fin cfg1.N) :
    (iblk1 (V6 m ρ) c 3 t : Vec Ideal S512x128 .f32) = (V6 m ρ c main_arg3 : S512x128.Idx → Elt Ideal .f32) := by
  have e := idx1 t
  funext y
  unfold iblk1
  rw [View.read_apply]
  show V6 m ρ c main_arg3 _ = V6 m ρ c main_arg3 y
  congr 1
  funext a
  apply Fin.ext
  match a with
  | ⟨0, _⟩ => show win1_3.index t 0 * 512 + 1 * (y 0).val = (y 0).val; rw [e.2.2.2.2.2.2.1]; omega
  | ⟨1, _⟩ => show win1_3.index t 1 * 128 + 1 * (y 1).val = (y 1).val; rw [e.2.2.2.2.2.2.2.1]; omega

/-- The head kernel's one point stages all of window 4's array. -/
theorem iblk1_4 (c : Dev nD) (t : Fin cfg1.N) :
    (iblk1 (V6 m ρ) c 4 t : Vec Ideal S1x128 .f32) = (V6 m ρ c main_arg4 : S1x128.Idx → Elt Ideal .f32) := by
  have e := idx1 t
  funext y
  unfold iblk1
  rw [View.read_apply]
  show V6 m ρ c main_arg4 _ = V6 m ρ c main_arg4 y
  congr 1
  funext a
  apply Fin.ext
  match a with
  | ⟨0, _⟩ => show win1_4.index t 0 * 1 + 1 * (y 0).val = (y 0).val; rw [e.2.2.2.2.2.2.2.2.1]; omega
  | ⟨1, _⟩ => show win1_4.index t 1 * 128 + 1 * (y 1).val = (y 1).val; rw [e.2.2.2.2.2.2.2.2.2.1]; omega

/-- The head kernel's one point stages all of window 5's array. -/
theorem iblk1_5 (c : Dev nD) (t : Fin cfg1.N) :
    (iblk1 (V6 m ρ) c 5 t : Vec Ideal S128x128 .f32) = (V6 m ρ c main_v2 : S128x128.Idx → Elt Ideal .f32) := by
  have e := idx1 t
  funext y
  unfold iblk1
  rw [View.read_apply]
  show V6 m ρ c main_v2 _ = V6 m ρ c main_v2 y
  congr 1
  funext a
  apply Fin.ext
  match a with
  | ⟨0, _⟩ => show win1_5.index t 0 * 128 + 1 * (y 0).val = (y 0).val; rw [e.2.2.2.2.2.2.2.2.2.2.1]; omega
  | ⟨1, _⟩ => show win1_5.index t 1 * 128 + 1 * (y 1).val = (y 1).val; rw [e.2.2.2.2.2.2.2.2.2.2.2.1]; omega

/-- The head kernel's one point stages all of window 6's array. -/
theorem iblk1_6 (c : Dev nD) (t : Fin cfg1.N) :
    (iblk1 (V6 m ρ) c 6 t : Vec Ideal S1x128 .f32) = (V6 m ρ c main_v3 : S1x128.Idx → Elt Ideal .f32) := by
  have e := idx1 t
  funext y
  unfold iblk1
  rw [View.read_apply]
  show V6 m ρ c main_v3 _ = V6 m ρ c main_v3 y
  congr 1
  funext a
  apply Fin.ext
  match a with
  | ⟨0, _⟩ => show win1_6.index t 0 * 1 + 1 * (y 0).val = (y 0).val; rw [e.2.2.2.2.2.2.2.2.2.2.2.2.1]; omega
  | ⟨1, _⟩ => show win1_6.index t 1 * 128 + 1 * (y 1).val = (y 1).val; rw [e.2.2.2.2.2.2.2.2.2.2.2.2.2.1]; omega

/-! ## What the head kernel finds in its arrays -/

/-- The feature array is what the pooling region left; the host stretches in between do not write it. -/
theorem V6_main_v1 (c : Dev nD) :
    (V6 m ρ c main_v1 : S256x1024.Idx → Elt Ideal .f32) = featArr (m ((c : Thread nD τ).loc main_arg0)) := by
  show W6 m ρ c (Proc.devRef .tc main_v1) = _
  dsimp only [W6, W5, W4, W3, hostOps1, hostOps1_1, hostOps1_2, hostOps1_3]
  after_results
  exact (W2_arr m ρ c 1).trans (pool_final m ρ c)

/-- No host stretch and no write-back of the pooling region touches argument 1: the head kernel finds it as launched. -/
theorem V6_main_arg1 (c : Dev nD) : V6 m ρ c main_arg1 = m ((c : Thread nD τ).loc main_arg1) := by
  show W6 m ρ c (Proc.devRef .tc main_arg1) = _
  dsimp only [W6, W5, W4, W3, hostOps1, hostOps1_1, hostOps1_2, hostOps1_3]
  after_results
  refine (W2_of_ne m ρ c main_arg1 (by decide)).trans ?_
  dsimp only [W1, hostOps0]
  after_results

/-- No host stretch and no write-back of the pooling region touches argument 2: the head kernel finds it as launched. -/
theorem V6_main_arg2 (c : Dev nD) : V6 m ρ c main_arg2 = m ((c : Thread nD τ).loc main_arg2) := by
  show W6 m ρ c (Proc.devRef .tc main_arg2) = _
  dsimp only [W6, W5, W4, W3, hostOps1, hostOps1_1, hostOps1_2, hostOps1_3]
  after_results
  refine (W2_of_ne m ρ c main_arg2 (by decide)).trans ?_
  dsimp only [W1, hostOps0]
  after_results

/-- No host stretch and no write-back of the pooling region touches argument 3: the head kernel finds it as launched. -/
theorem V6_main_arg3 (c : Dev nD) : V6 m ρ c main_arg3 = m ((c : Thread nD τ).loc main_arg3) := by
  show W6 m ρ c (Proc.devRef .tc main_arg3) = _
  dsimp only [W6, W5, W4, W3, hostOps1, hostOps1_1, hostOps1_2, hostOps1_3]
  after_results
  refine (W2_of_ne m ρ c main_arg3 (by decide)).trans ?_
  dsimp only [W1, hostOps0]
  after_results

/-- No host stretch and no write-back of the pooling region touches argument 4: the head kernel finds it as launched. -/
theorem V6_main_arg4 (c : Dev nD) : V6 m ρ c main_arg4 = m ((c : Thread nD τ).loc main_arg4) := by
  show W6 m ρ c (Proc.devRef .tc main_arg4) = _
  dsimp only [W6, W5, W4, W3, hostOps1, hostOps1_1, hostOps1_2, hostOps1_3]
  after_results
  refine (W2_of_ne m ρ c main_arg4 (by decide)).trans ?_
  dsimp only [W1, hostOps0]
  after_results

/-- The padded last-layer weights: the [128, 3] argument with 125 columns of the padding value appended. -/
theorem V6_main_v2 (c : Dev nD) : (V6 m ρ c main_v2 : S128x128.Idx → Elt Ideal .f32)
    = pad S128x128 ![0, 0] ![0, 125] ![0, 0] (m ((c : Thread nD τ).loc main_arg5) : S128x3.Idx → Elt Ideal .f32)
        (sitofp (F := Ideal) .f32 (constantI S_ 32 0#32)) pads_S128x3_S128x128_000_01250 h_S_ := by
  show W6 m ρ c (Proc.devRef .tc main_v2) = _
  dsimp only [W6, W5, W4, W3, hostOps1, hostOps1_1, hostOps1_2, hostOps1_3]
  after_results
  have e5 : W2 m ρ c (Proc.devRef .tc main_arg5) = m ((c : Thread nD τ).loc main_arg5) := by
    refine (W2_of_ne m ρ c main_arg5 (by decide)).trans ?_
    dsimp only [W1, hostOps0]
    after_results
  show pad S128x128 ![0, 0] ![0, 125] ![0, 0] (W2 m ρ c (Proc.devRef .tc main_arg5) : S128x3.Idx → Elt Ideal .f32)
      (sitofp (F := Ideal) .f32 (constantI S_ 32 0#32)) pads_S128x3_S128x128_000_01250 h_S_ = _
  rw [e5]

/-- The padded last-layer bias: the [1, 3] argument with 125 columns of the padding value appended. -/
theorem V6_main_v3 (c : Dev nD) : (V6 m ρ c main_v3 : S1x128.Idx → Elt Ideal .f32)
    = pad S1x128 ![0, 0] ![0, 125] ![0, 0] (m ((c : Thread nD τ).loc main_arg6) : S1x3.Idx → Elt Ideal .f32)
        (sitofp (F := Ideal) .f32 (constantI S_ 32 0#32)) pads_S1x3_S1x128_000_01250 h_S_ := by
  show W6 m ρ c (Proc.devRef .tc main_v3) = _
  dsimp only [W6, W5, W4, W3, hostOps1, hostOps1_1, hostOps1_2, hostOps1_3]
  after_results
  have e6 : W2 m ρ c (Proc.devRef .tc main_arg6) = m ((c : Thread nD τ).loc main_arg6) := by
    refine (W2_of_ne m ρ c main_arg6 (by decide)).trans ?_
    dsimp only [W1, hostOps0]
    after_results
  show pad S1x128 ![0, 0] ![0, 125] ![0, 0] (W2 m ρ c (Proc.devRef .tc main_arg6) : S1x3.Idx → Elt Ideal .f32)
      (sitofp (F := Ideal) .f32 (constantI S_ 32 0#32)) pads_S1x3_S1x128_000_01250 h_S_ = _
  rw [e6]

/-! ## What the head kernel leaves -/

/-- The head kernel's [256, 256] output buffer after its one point: the two stores as pieces over the arrays it finds. -/
def headOut (c : Dev nD) : Vec Ideal S256x256 .f32 :=
  out1_7 (V6 m ρ c main_v1) (V6 m ρ c main_arg1) (V6 m ρ c main_arg2) (V6 m ρ c main_arg3) (V6 m ρ c main_arg4) (V6 m ρ c main_v2) (V6 m ρ c main_v3)

/-- The one point writes that buffer back whole. -/
theorem flushed1_eq (c : Dev nD) (t : Fin cfg1.N) :
    (dat1 (V6 m ρ) c).flushed 7 t = ((cfg1.win 7).blk t).view.read (Elt Ideal) (headOut m ρ c) := by
  show (cfg1.win 7).cut (grid1.coords t) ((dat1 (V6 m ρ) c).after 7 t) = _
  rw [after1_7, iblk1_0, iblk1_1, iblk1_2, iblk1_3, iblk1_4, iblk1_5, iblk1_6]
  have e := idx1 t
  have hz' : (fun a => win1_7.index t a * main_v4.ty.shape.size a) = fun _ => 0 := funext fun a => by
    match a with
    | ⟨0, _⟩ => show win1_7.index t 0 * 256 = 0; rw [e.2.2.2.2.2.2.2.2.2.2.2.2.2.2.1]
    | ⟨1, _⟩ => show win1_7.index t 1 * 256 = 0; rw [e.2.2.2.2.2.2.2.2.2.2.2.2.2.2.2]
  exact (Memref.read_access_unit_zero (Elt Ideal) main_v4 hz' (fun a => by rw [congrFun hz' a]; simp) (headOut m ρ c)).symm

/-- So the output array of the head region is that buffer. -/
theorem head_final (c : Dev nD) : (dat1 (V6 m ρ) c).arrAt 7 cfg1.N = headOut m ρ c :=
  (dat1 (V6 m ρ) c).arrAt_eq_of_cover 7 (headOut m ρ c) (fun t _ => flushed1_eq m ρ c t) fun i => by
    have e := idx1 t1_0
    have h0 : (i 0).val < 256 := (i 0).isLt
    have h1 : (i 1).val < 256 := (i 1).isLt
    refine ⟨t1_0, flush1_7 t1_0, ?_⟩
    show i ∈ ((View.whole main_v4).slice (win1_7.rect t1_0)).set
    rw [View.set_slice_whole, Rect.mem_set_unit]
    intro a
    match a with
    | ⟨0, _⟩ => show win1_7.index t1_0 0 * 256 ≤ (i 0).val ∧ (i 0).val < win1_7.index t1_0 0 * 256 + 256; rw [e.2.2.2.2.2.2.2.2.2.2.2.2.2.2.1]; omega
    | ⟨1, _⟩ => show win1_7.index t1_0 1 * 256 ≤ (i 1).val ∧ (i 1).val < win1_7.index t1_0 1 * 256 + 256; rw [e.2.2.2.2.2.2.2.2.2.2.2.2.2.2.2]; omega

/-- Columns 0–127 of that buffer hold the first store's value: the normalized features. -/
theorem headOut_left (c : Dev nD) (b : Fin 256) (q : Fin 128) :
    headOut m ρ c (ix2 b (⟨q.val, by have := q.isLt; omega⟩ : Fin 256))
      = k1_pay1 (F := Ideal) (V6 m ρ c main_v1) (V6 m ρ c main_arg1) (V6 m ρ c main_arg2) (V6 m ρ c main_arg3) (V6 m ρ c main_arg4) (ix2 b q) := by
  have hq : q.val < 128 := q.isLt
  unfold headOut out1_7
  simp only [View.ld_unit_zero (S := S256x1024) hz2, View.ld_unit_zero (S := S1024x512) hz2, View.ld_unit_zero (S := S1x512) hz2, View.ld_unit_zero (S := S512x128) hz2, View.ld_unit_zero (S := S1x128) hz2, View.ld_unit_zero (S := S128x128) hz2]
  rw [View.canon_cons_of_not_mem _ _ (fun h => by
    have h' : (ix2 b (⟨q.val, by omega⟩ : Fin 256) : S256x256.Idx) ∈ r1_7.set := h
    rw [Rect.mem_set_unit] at h'
    have h2 : (128 : Nat) ≤ q.val := (h' 1).1
    omega)]
  have hy : (ix2 b (⟨q.val, by omega⟩ : Fin 256) : S256x256.Idx) = r1_6.emb (ix2 b q : S256x128.Idx) := by
    funext a
    apply Fin.ext
    match a with
    | ⟨0, _⟩ => show b.val = 0 + 1 * b.val; omega
    | ⟨1, _⟩ => show q.val = 0 + 1 * q.val; omega
  rw [hy]
  exact View.canon_cons_emb _ _ _ _

/-- Columns 128–255 hold the second store's value: the logits over the padded last layer. -/
theorem headOut_right (c : Dev nD) (b : Fin 256) (j : Fin 128) :
    headOut m ρ c (ix2 b (⟨128 + j.val, by have := j.isLt; omega⟩ : Fin 256))
      = k1_pay2 (F := Ideal) (V6 m ρ c main_v1) (V6 m ρ c main_arg1) (V6 m ρ c main_arg2) (V6 m ρ c main_arg3) (V6 m ρ c main_arg4) (V6 m ρ c main_v2) (V6 m ρ c main_v3) (ix2 b j) := by
  have hj : j.val < 128 := j.isLt
  unfold headOut out1_7
  simp only [View.ld_unit_zero (S := S256x1024) hz2, View.ld_unit_zero (S := S1024x512) hz2, View.ld_unit_zero (S := S1x512) hz2, View.ld_unit_zero (S := S512x128) hz2, View.ld_unit_zero (S := S1x128) hz2, View.ld_unit_zero (S := S128x128) hz2]
  have hy : (ix2 b (⟨128 + j.val, by omega⟩ : Fin 256) : S256x256.Idx) = r1_7.emb (ix2 b j : S256x128.Idx) := by
    funext a
    apply Fin.ext
    match a with
    | ⟨0, _⟩ => show b.val = 0 + 1 * b.val; omega
    | ⟨1, _⟩ => show 128 + j.val = 128 + 1 * j.val; omega
  rw [hy]
  exact View.canon_cons_emb _ _ _ _

/-! ## The two results -/

/-- The feature row the head kernel reads for batch entry `b` is the pooled row of the input. -/
theorem featRow (x : FVec Ideal ⟨4, ![256, 1024, 7, 7]⟩ .f32) (b : Fin 256) :
    (fun i : Fin 1024 => featArr x (ix2 b i)) = pooledRow x b := rfl

/-- The first result (the slice of columns 0–127): the normalized features of every batch entry. -/
theorem W8_main_v5 (c : Dev nD) : (W8 m ρ c (Proc.devRef .tc main_v5) : S256x128.Idx → Elt Ideal .f32)
    = unitArr (m ((c : Thread nD τ).loc main_arg0)) (m ((c : Thread nD τ).loc main_arg1)) (m ((c : Thread nD τ).loc main_arg2))
        (m ((c : Thread nD τ).loc main_arg3)) (m ((c : Thread nD τ).loc main_arg4)) := by
  dsimp only [W8, hostOps2]
  after_results
  funext i
  obtain ⟨b, q, rfl⟩ : ∃ (b : Fin 256) (q : Fin 128), i = ix2 b q := ⟨i 0, i 1, eq_ix2 i⟩
  have hq : q.val < 128 := q.isLt
  rw [extractStridedSlice_apply _ _ _ (ix2 b q) (ix2 b (⟨q.val, by omega⟩ : Fin 256)) (fun a => by
    match a with
    | ⟨0, _⟩ => show b.val = 0 + b.val; omega
    | ⟨1, _⟩ => show q.val = 0 + q.val; omega)]
  rw [show W7 m ρ c (Proc.devRef .tc main_v4) = headOut m ρ c from (W7_arr m ρ c 7).trans (head_final m ρ c)]
  rw [headOut_left, RefPay.pay1_at, V6_main_v1, V6_main_arg1, V6_main_arg2, V6_main_arg3, V6_main_arg4, featRow]
  rfl

/-- A padded last-layer weight read at one of the first three columns is the weight itself. -/
theorem padW_at (w3 : S128x3.Idx → Elt Ideal .f32) (v : S_.Idx → Elt Ideal .f32) (q : Fin 128) (j : Fin 3) :
    pad S128x128 ![0, 0] ![0, 125] ![0, 0] w3 v pads_S128x3_S128x128_000_01250 h_S_ (ix2 q (⟨j.val, by have := j.isLt; omega⟩ : Fin 128))
      = w3 (ix2 q j) := by
  refine pad_apply_of_inside _ _ _ w3 v _ _ _ (ix2 q j) fun a => ?_
  match a with
  | ⟨0, _⟩ => show q.val = 0 + q.val * (0 + 1); omega
  | ⟨1, _⟩ => show j.val = 0 + j.val * (0 + 1); omega

/-- The same for the padded bias. -/
theorem padB_at (b3 : S1x3.Idx → Elt Ideal .f32) (v : S_.Idx → Elt Ideal .f32) (j : Fin 3) :
    pad S1x128 ![0, 0] ![0, 125] ![0, 0] b3 v pads_S1x3_S1x128_000_01250 h_S_ (ix2 (0 : Fin 1) (⟨j.val, by have := j.isLt; omega⟩ : Fin 128))
      = b3 (ix2 (0 : Fin 1) j) := by
  refine pad_apply_of_inside _ _ _ b3 v _ _ _ (ix2 (0 : Fin 1) j) fun a => ?_
  match a with
  | ⟨0, _⟩ => show (0 : Nat) = 0 + 0 * (0 + 1); omega
  | ⟨1, _⟩ => show j.val = 0 + j.val * (0 + 1); omega

/-- A logit depends on one column of the last layer only: if column `j'` of a wider last layer is column `j` of a
    narrower one, the two logits are equal (the padding columns are never read). -/
theorem logit_of_col {K H D n n' : Nat} (row : Fin K → Ideal .f32) (w1 : FVec Ideal ⟨2, ![K, H]⟩ .f32) (b1 : FVec Ideal ⟨2, ![1, H]⟩ .f32)
    (w2 : FVec Ideal ⟨2, ![H, D]⟩ .f32) (b2 : FVec Ideal ⟨2, ![1, D]⟩ .f32)
    (w3 : FVec Ideal ⟨2, ![D, n]⟩ .f32) (b3 : FVec Ideal ⟨2, ![1, n]⟩ .f32)
    (w3' : FVec Ideal ⟨2, ![D, n']⟩ .f32) (b3' : FVec Ideal ⟨2, ![1, n']⟩ .f32) (j : Fin n) (j' : Fin n')
    (hw : ∀ q : Fin D, w3' (ix2 q j') = w3 (ix2 q j)) (hb : b3' (ix2 (0 : Fin 1) j') = b3 (ix2 (0 : Fin 1) j)) :
    logit row w1 b1 w2 b2 w3' b3' j' = logit row w1 b1 w2 b2 w3 b3 j := by
  unfold logit
  rw [hb]
  exact congrArg (· + b3 (ix2 (0 : Fin 1) j)) (Finset.sum_congr rfl fun q _ => by rw [hw q])

/-- The second result (the slice of columns 128–130): the three logits of every batch entry. -/
theorem W8_main_v6 (c : Dev nD) : (W8 m ρ c (Proc.devRef .tc main_v6) : S256x3.Idx → Elt Ideal .f32)
    = logitArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  dsimp only [W8, hostOps2]
  after_results
  funext i
  obtain ⟨b, j, rfl⟩ : ∃ (b : Fin 256) (j : Fin 3), i = ix2 b j := ⟨i 0, i 1, eq_ix2 i⟩
  have hj : j.val < 3 := j.isLt
  rw [extractStridedSlice_apply _ _ _ (ix2 b j) (ix2 b (⟨128 + j.val, by omega⟩ : Fin 256)) (fun a => by
    match a with
    | ⟨0, _⟩ => show b.val = 0 + b.val; omega
    | ⟨1, _⟩ => show 128 + j.val = 128 + j.val; rfl)]
  rw [show W7 m ρ c (Proc.devRef .tc main_v4) = headOut m ρ c from (W7_arr m ρ c 7).trans (head_final m ρ c)]
  refine (headOut_right m ρ c b (⟨j.val, by omega⟩ : Fin 128)).trans ?_
  rw [RefPay.pay2_at, V6_main_v1, V6_main_arg1, V6_main_arg2, V6_main_arg3, V6_main_arg4, featRow, V6_main_v2, V6_main_v3]
  exact logit_of_col _ _ _ _ _ _ _ _ _ j (⟨j.val, by omega⟩ : Fin 128) (fun q => padW_at _ _ q j) (padB_at _ _ j)

end Cert.Head.RefHead

end
-- ==== Proof.RefFinal.lean ====
/-
  The reference program's run with its two results named: every execution ends with the first result holding the
  normalized features and the second the logits, as the head's formulas of the arguments, and the arguments unchanged.
-/
import proofs.«145543_g2000702716457357_pallasbulk_1135_15_alg».proof.Proof.RefRun
import proofs.«145543_g2000702716457357_pallasbulk_1135_15_alg».proof.Proof.RefHead

set_option maxRecDepth 16384

noncomputable section

namespace Cert.Head.RefFinal

open Cert.ReferenceIdeal Cert.ReferenceIdeal.Gen Cert.Head
open Idealize.ShloMosaic Idealize.ShloMosaic.TcCoe Idealize.SL.Sem

variable (m : (ℓ : Loc nD τ sig) → Buf (Elt Ideal) ℓ) (ρ : Dev nD → PrngReg)

/-- The run of the reference, read: the last boundary's contents at the two results are the head's formulas
    (the two slices of the head region's output), and at each argument the launch contents. -/
theorem ref_run : θ_run (defs (F := Ideal)) (onTc (τ := τ) (main (F := Ideal))) ⟨m, fun _ => 0, ρ⟩ (fun r => ∀ c : Dev nD,
      r.2.mem ((c.tc : Thread nD τ).loc main_v5) = unitArr (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_v6) = logitArr (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v5 (by decide))).trans (RefHead.W8_main_v5 m ρ c),
     (h c _ (mem_uc main_v6 (by decide))).trans (RefHead.W8_main_v6 m ρ c),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c)⟩)
    (RefRun.run_all m ρ)

end Cert.Head.RefFinal

end
-- ==== Proof.lean ====
/-
  The proof of `Cert.Claim`: the fused classifier-head kernel against its two-kernel reference.

  Both programs compute, for every batch entry b, the pooled feature row (the sum over the 7 × 7 spatial positions of
  x[b, ·, h, w] times one and the same constant), two rectified affine layers, a scaling to unit Euclidean length
  (the squared length bounded below by one and the same small constant before the reciprocal square root), and a last
  affine layer (Proof/Spec.lean).  The kernel does it tile by tile of 32 batch entries, reading x with the spatial
  axes in front (a transposition and a merge of the two spatial axes on the host); the reference pools in one kernel
  over blocks of 16 entries × 256 channels of x with the spatial axes merged, then runs the layers on the whole batch
  in a second kernel with the last layer padded from 3 to 128 columns, and slices the two results out of one buffer.
  On the extended reals each result entry of either program is the same formula of the same argument entries — the
  sums over the spatial positions are the same finite sum indexed two ways, the padding columns are never read —
  so nothing about finiteness of the inputs is used.

  Proof/KernelPay.lean and Proof/RefPay.lean read the kernels' stored values at an entry (over Proof/HeadAt.lean and
  Proof/PoolAt.lean); Proof/KernelBlocks.lean and Proof/KernelRun.lean read the fused kernel's run as whole arrays;
  Proof/RefRun.lean, Proof/RefPool.lean, Proof/RefHead.lean and Proof/RefFinal.lean do the same for the reference,
  through its host stretches and its two regions.  The frames are the generated ones; the ideal pass rewrote nothing.
-/
import proofs.«145543_g2000702716457357_pallasbulk_1135_15_alg».proof.Defs
import proofs.«145543_g2000702716457357_pallasbulk_1135_15_alg».proof.Proof.Gen.Kernel
import proofs.«145543_g2000702716457357_pallasbulk_1135_15_alg».proof.Proof.Gen.Kernel.Skeleton
import proofs.«145543_g2000702716457357_pallasbulk_1135_15_alg».proof.Proof.Gen.Kernel.Launch
import proofs.«145543_g2000702716457357_pallasbulk_1135_15_alg».proof.Proof.Gen.Kernel.Points
import proofs.«145543_g2000702716457357_pallasbulk_1135_15_alg».proof.Proof.Gen.Kernel.Frame
import proofs.«145543_g2000702716457357_pallasbulk_1135_15_alg».proof.Proof.Gen.KernelIdeal
import proofs.«145543_g2000702716457357_pallasbulk_1135_15_alg».proof.Proof.Gen.KernelIdeal.Skeleton
import proofs.«145543_g2000702716457357_pallasbulk_1135_15_alg».proof.Proof.Gen.KernelIdeal.Launch
import proofs.«145543_g2000702716457357_pallasbulk_1135_15_alg».proof.Proof.Gen.KernelIdeal.Points
import proofs.«145543_g2000702716457357_pallasbulk_1135_15_alg».proof.Proof.Gen.KernelIdeal.Frame
import proofs.«145543_g2000702716457357_pallasbulk_1135_15_alg».proof.Proof.Gen.KernelIdeal.Value
import proofs.«145543_g2000702716457357_pallasbulk_1135_15_alg».proof.Proof.Gen.ReferenceIdeal
import proofs.«145543_g2000702716457357_pallasbulk_1135_15_alg».proof.Proof.Gen.ReferenceIdeal.Skeleton
import proofs.«145543_g2000702716457357_pallasbulk_1135_15_alg».proof.Proof.Gen.ReferenceIdeal.Launch
import proofs.«145543_g2000702716457357_pallasbulk_1135_15_alg».proof.Proof.Gen.ReferenceIdeal.Points
import proofs.«145543_g2000702716457357_pallasbulk_1135_15_alg».proof.Proof.Gen.ReferenceIdeal.Frame
import proofs.«145543_g2000702716457357_pallasbulk_1135_15_alg».proof.Proof.Gen.Pre_finite_inputs
import proofs.«145543_g2000702716457357_pallasbulk_1135_15_alg».proof.Proof.KernelRun
import proofs.«145543_g2000702716457357_pallasbulk_1135_15_alg».proof.Proof.RefFinal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ => Cert.ReferenceIdeal.Gen.frame m ρ

/-- The idealized kernel is the kernel's own text read on the extended reals: nothing was rewritten. -/
theorem preserves : Cert.preserves_Kernel_KernelIdeal := trivial

/-- From memories agreeing on the arguments both programs end with the normalized features and the logits as the
    head's formulas of the arguments: the same two arrays. -/
theorem algebraic : Cert.algebraic_KernelIdeal_ReferenceIdeal := by
  intro m ρ m' ρ' _ hagree
  refine ⟨_, _, Cert.Head.KernelRun.kernel_run m ρ, ?_⟩
  refine (θ_run Cert.ReferenceIdeal.defs _ _).mono (fun r h c => ?_) (Cert.Head.RefFinal.ref_run m' ρ')
  obtain ⟨h5, h6, ha⟩ := h c
  obtain ⟨e0, e1, e2, e3, e4, e5, e6⟩ := hagree c
  refine ⟨?_, ?_, ha⟩
  · rw [h5, e0, e1, e2, e3, e4]
  · rw [h6, e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
